-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1000x128 : Shape := ⟨3, ![1024, 1000, 128]⟩
abbrev S1x1000 : Shape := ⟨2, ![1, 1000]⟩
abbrev S1000x128 : Shape := ⟨2, ![1000, 128]⟩
abbrev S1000 : Shape := ⟨1, ![1000]⟩
abbrev S_ : Shape := ⟨0, ![]⟩

class Facts : Prop where
  bcast_S_S1024x1000x128 : S_.BroadcastsInDim S1024x1000x128 (![] : Fin 0 → Fin S1024x1000x128.rank)
  reducesTo_S1024x1000x128_S_d0_1_2 : S1024x1000x128.ReducesTo [0, 1, 2] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S1000 : S_.BroadcastsInDim S1000 (![] : Fin 0 → Fin S1000.rank)
  reducesTo_S1000_S_d0 : S1000.ReducesTo [0] S_
  bcast_S_S1x1000 : S_.BroadcastsInDim S1x1000 (![] : Fin 0 → Fin S1x1000.rank)
  reducesTo_S1x1000_S_d0_1 : S1x1000.ReducesTo [0, 1] S_

variable [Facts]

def fn_part1 {F : FTy → Type} [FloatOps F] (main_arg1 : IVec S1x1000 32) (main_v13 : IVec S_ 1) (main_v15 : IVec S1x1000 1) (main_c_5 : IVec S_ 1) : IVec S_ 1 :=
  let main_v16 : IVec S_ 1 := (fun x v => Host.reduce IntOp.andi x v reducesTo_S1x1000_S_d0_1 h_S_) main_v15 main_c_5
  let main_v17 : IVec S_ 1 := andi main_v13 main_v16
  let main_c_6 : IVec S_ 32 := constantI S_ 32 1000#32
  let main_v18 : IVec S1x1000 32 := broadcastInDim S1x1000 ![] bcast_S_S1x1000 main_c_6
  let main_v19 : IVec S1x1000 1 := cmpi .slt main_arg1 main_v18
  let main_c_7 : IVec S_ 1 := constantI S_ 1 1#1
  let main_v20 : IVec S_ 1 := (fun x v => Host.reduce IntOp.andi x v reducesTo_S1x1000_S_d0_1 h_S_) main_v19 main_c_7
  let main_v21 : IVec S_ 1 := andi main_v17 main_v20
  main_v21

def fn {F : FTy → Type} [FloatOps F] (main_arg0 : FVec F S1024x1000x128 .f32) (main_arg1 : IVec S1x1000 32) (main_arg2 : FVec F S1000x128 .f32) (main_arg3 : FVec F S1000 .f32) : IVec S_ 1 :=
  let main_v0 : FVec F S1024x1000x128 .f32 := Host.absf main_arg0
  let main_cst : FVec F S_ .f32 := constant S_ .f32 0x7F800000#32
  let main_v1 : FVec F S1024x1000x128 .f32 := broadcastInDim S1024x1000x128 ![] bcast_S_S1024x1000x128 main_cst
  let main_v2 : IVec S1024x1000x128 1 := cmpf .olt main_v0 main_v1
  let main_c : IVec S_ 1 := constantI S_ 1 1#1
  let main_v3 : IVec S_ 1 := (fun x v => Host.reduce IntOp.andi x v reducesTo_S1024x1000x128_S_d0_1_2 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S1000 .f32 := Host.absf main_arg3
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_c_4 : IVec S_ 32 := constantI S_ 32 0#32
  let main_v14 : IVec S1x1000 32 := broadcastInDim S1x1000 ![] bcast_S_S1x1000 main_c_4
  let main_v15 : IVec S1x1000 1 := cmpi .sge main_arg1 main_v14
  let main_c_5 : IVec S_ 1 := constantI S_ 1 1#1
  fn_part1 (F := F) main_arg1 main_v13 main_v15 main_c_5
-- ==== Kernel.lean ====
abbrev S1024x1000x128 : Shape := ⟨3, ![1024, 1000, 128]⟩
abbrev S1x1000 : Shape := ⟨2, ![1, 1000]⟩
abbrev S1000x128 : Shape := ⟨2, ![1000, 128]⟩
abbrev S1000 : Shape := ⟨1, ![1000]⟩
abbrev S1000x1 : Shape := ⟨2, ![1000, 1]⟩
abbrev S32x1000x32 : Shape := ⟨3, ![32, 1000, 32]⟩
abbrev S32x1000x128 : Shape := ⟨3, ![32, 1000, 128]⟩
abbrev S1x1000x32 : Shape := ⟨3, ![1, 1000, 32]⟩
abbrev S1000x1000 : Shape := ⟨2, ![1000, 1000]⟩
abbrev S200x128 : Shape := ⟨2, ![200, 128]⟩
abbrev S1x200x128 : Shape := ⟨3, ![1, 200, 128]⟩
abbrev S200 : Shape := ⟨1, ![200]⟩
abbrev S200x1 : Shape := ⟨2, ![200, 1]⟩
abbrev S200x32 : Shape := ⟨2, ![200, 32]⟩
abbrev S1x200x32 : Shape := ⟨3, ![1, 200, 32]⟩
abbrev S32x32x1000 : Shape := ⟨3, ![32, 32, 1000]⟩
abbrev S1024x1000 : Shape := ⟨2, ![1024, 1000]⟩

abbrev nBuf : Space → Nat
  | .hbm => 8
  | .vmem => 8
  | .smem => 0
  | _ => 0

abbrev bufTy : (tb : Table) → Fin (tcTables nBuf tb) → BufTy
  | .hbm, ⟨0, _⟩ => ⟨S1024x1000x128, .f32⟩
  | .hbm, ⟨1, _⟩ => ⟨S1x1000, .i32⟩
  | .hbm, ⟨2, _⟩ => ⟨S1000x128, .f32⟩
  | .hbm, ⟨3, _⟩ => ⟨S1000, .f32⟩
  | .hbm, ⟨4, _⟩ => ⟨S1000x1, .f32⟩
  | .hbm, ⟨5, _⟩ => ⟨S32x1000x32, .f32⟩
  | .hbm, ⟨6, _⟩ => ⟨S32x32x1000, .f32⟩
  | .hbm, ⟨7, _⟩ => ⟨S1024x1000, .f32⟩
  | .local _ .vmem, ⟨0, _⟩ => ⟨S1x1000, .i32⟩
  | .local _ .vmem, ⟨1, _⟩ => ⟨S1000x128, .f32⟩
  | .local _ .vmem, ⟨2, _⟩ => ⟨S1000x1, .f32⟩
  | .local _ .vmem, ⟨3, _⟩ => ⟨S32x1000x128, .f32⟩
  | .local _ .vmem, ⟨4, _⟩ => ⟨S32x1000x128, .f32⟩
  | .local _ .vmem, ⟨5, _⟩ => ⟨S1x1000x32, .f32⟩
  | .local _ .vmem, ⟨6, _⟩ => ⟨S1x1000x32, .f32⟩
  | .local _ .vmem, ⟨7, _⟩ => ⟨S1000x128, .f32⟩
  | _, _ => ⟨S1024x1000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1000_S1000x1 : S1000.ShapeCasts S1000x1
  inb_S1x1000_S1x1000_0_0 : ∀ a, (![0, 0] : Fin 2 → Nat) a + S1x1000.size a ≤ S1x1000.size a
  h_S1x1000 : 0 < S1x1000.numel
  shapeCasts_S1x1000_S1000 : S1x1000.ShapeCasts S1000
  iota_S1000x1000_d1_w32 : S1000x1000.Iotas .tc 32 [1]
  broadcasts_S1000x1_S1000x1000 : S1000x1.Broadcasts S1000x1000
  natLt_1_32 : 1 < 32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x128_S200x128_0_0 : ∀ a, (![0, 0] : Fin 2 → Nat) a + S200x128.size a ≤ S1000x128.size a
  h_S200x128 : 0 < S200x128.numel
  inb_S32x1000x128_S1x200x128_0_0_0 : ∀ a, (![0, 0, 0] : Fin 3 → Nat) a + S1x200x128.size a ≤ S32x1000x128.size a
  h_S1x200x128 : 0 < S1x200x128.numel
  shapeCasts_S1x200x128_S200x128 : S1x200x128.ShapeCasts S200x128
  reduces_S200x128_S200 : S200x128.Reduces [1] S200
  shapeCasts_S200_S200x1 : S200.ShapeCasts S200x1
  inb_S32x1000x128_S1x200x128_1_0_0 : ∀ a, (![1, 0, 0] : Fin 3 → Nat) a + S1x200x128.size a ≤ S32x1000x128.size a
  inb_S32x1000x128_S1x200x128_2_0_0 : ∀ a, (![2, 0, 0] : Fin 3 → Nat) a + S1x200x128.size a ≤ S32x1000x128.size a
  inb_S32x1000x128_S1x200x128_3_0_0 : ∀ a, (![3, 0, 0] : Fin 3 → Nat) a + S1x200x128.size a ≤ S32x1000x128.size a
  inb_S32x1000x128_S1x200x128_4_0_0 : ∀ a, (![4, 0, 0] : Fin 3 → Nat) a + S1x200x128.size a ≤ S32x1000x128.size a
  inb_S32x1000x128_S1x200x128_5_0_0 : ∀ a, (![5, 0, 0] : Fin 3 → Nat) a + S1x200x128.size a ≤ S32x1000x128.size a
  inb_S32x1000x128_S1x200x128_6_0_0 : ∀ a, (![6, 0, 0] : Fin 3 → Nat) a + S1x200x128.size a ≤ S32x1000x128.size a
  inb_S32x1000x128_S1x200x128_7_0_0 : ∀ a, (![7, 0, 0] : Fin 3 → Nat) a + S1x200x128.size a ≤ S32x1000x128.size a
  inb_S32x1000x128_S1x200x128_8_0_0 : ∀ a, (![8, 0, 0] : Fin 3 → Nat) a + S1x200x128.size a ≤ S32x1000x128.size a
  inb_S32x1000x128_S1x200x128_9_0_0 : ∀ a, (![9, 0, 0] : Fin 3 → Nat) a + S1x200x128.size a ≤ S32x1000x128.size a
  inb_S32x1000x128_S1x200x128_10_0_0 : ∀ a, (![10, 0, 0] : Fin 3 → Nat) a + S1x200x128.size a ≤ S32x1000x128.size a
  inb_S32x1000x128_S1x200x128_11_0_0 : ∀ a, (![11, 0, 0] : Fin 3 → Nat) a + S1x200x128.size a ≤ S32x1000x128.size a
  inb_S32x1000x128_S1x200x128_12_0_0 : ∀ a, (![12, 0, 0] : Fin 3 → Nat) a + S1x200x128.size a ≤ S32x1000x128.size a
  inb_S32x1000x128_S1x200x128_13_0_0 : ∀ a, (![13, 0, 0] : Fin 3 → Nat) a + S1x200x128.size a ≤ S32x1000x128.size a
  inb_S32x1000x128_S1x200x128_14_0_0 : ∀ a, (![14, 0, 0] : Fin 3 → Nat) a + S1x200x128.size a ≤ S32x1000x128.size a
  inb_S32x1000x128_S1x200x128_15_0_0 : ∀ a, (![15, 0, 0] : Fin 3 → Nat) a + S1x200x128.size a ≤ S32x1000x128.size a
  inb_S32x1000x128_S1x200x128_16_0_0 : ∀ a, (![16, 0, 0] : Fin 3 → Nat) a + S1x200x128.size a ≤ S32x1000x128.size a
  inb_S32x1000x128_S1x200x128_17_0_0 : ∀ a, (![17, 0, 0] : Fin 3 → Nat) a + S1x200x128.size a ≤ S32x1000x128.size a
  inb_S32x1000x128_S1x200x128_18_0_0 : ∀ a, (![18, 0, 0] : Fin 3 → Nat) a + S1x200x128.size a ≤ S32x1000x128.size a
  inb_S32x1000x128_S1x200x128_19_0_0 : ∀ a, (![19, 0, 0] : Fin 3 → Nat) a + S1x200x128.size a ≤ S32x1000x128.size a
  inb_S32x1000x128_S1x200x128_20_0_0 : ∀ a, (![20, 0, 0] : Fin 3 → Nat) a + S1x200x128.size a ≤ S32x1000x128.size a
  inb_S32x1000x128_S1x200x128_21_0_0 : ∀ a, (![21, 0, 0] : Fin 3 → Nat) a + S1x200x128.size a ≤ S32x1000x128.size a
  inb_S32x1000x128_S1x200x128_22_0_0 : ∀ a, (![22, 0, 0] : Fin 3 → Nat) a + S1x200x128.size a ≤ S32x1000x128.size a
  inb_S32x1000x128_S1x200x128_23_0_0 : ∀ a, (![23, 0, 0] : Fin 3 → Nat) a + S1x200x128.size a ≤ S32x1000x128.size a
  inb_S32x1000x128_S1x200x128_24_0_0 : ∀ a, (![24, 0, 0] : Fin 3 → Nat) a + S1x200x128.size a ≤ S32x1000x128.size a
  inb_S32x1000x128_S1x200x128_25_0_0 : ∀ a, (![25, 0, 0] : Fin 3 → Nat) a + S1x200x128.size a ≤ S32x1000x128.size a
  inb_S32x1000x128_S1x200x128_26_0_0 : ∀ a, (![26, 0, 0] : Fin 3 → Nat) a + S1x200x128.size a ≤ S32x1000x128.size a
  inb_S32x1000x128_S1x200x128_27_0_0 : ∀ a, (![27, 0, 0] : Fin 3 → Nat) a + S1x200x128.size a ≤ S32x1000x128.size a
  inb_S32x1000x128_S1x200x128_28_0_0 : ∀ a, (![28, 0, 0] : Fin 3 → Nat) a + S1x200x128.size a ≤ S32x1000x128.size a
  inb_S32x1000x128_S1x200x128_29_0_0 : ∀ a, (![29, 0, 0] : Fin 3 → Nat) a + S1x200x128.size a ≤ S32x1000x128.size a
  inb_S32x1000x128_S1x200x128_30_0_0 : ∀ a, (![30, 0, 0] : Fin 3 → Nat) a + S1x200x128.size a ≤ S32x1000x128.size a
  inb_S32x1000x128_S1x200x128_31_0_0 : ∀ a, (![31, 0, 0] : Fin 3 → Nat) a + S1x200x128.size a ≤ S32x1000x128.size a
  concatenates_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x32_d1 : Shape.Concatenates [S200x1, S200x1, S200x1, S200x1, S200x1, S200x1, S200x1, S200x1, S200x1, S200x1, S200x1, S200x1, S200x1, S200x1, S200x1, S200x1, S200x1, S200x1, S200x1, S200x1, S200x1, S200x1, S200x1, S200x1, S200x1, S200x1, S200x1, S200x1, S200x1, S200x1, S200x1, S200x1] S200x32 1
  inb_S1000x1_S200x1_0_0 : ∀ a, (![0, 0] : Fin 2 → Nat) a + S200x1.size a ≤ S1000x1.size a
  h_S200x1 : 0 < S200x1.numel
  shapeCasts_S200x1_S200x1 : S200x1.ShapeCasts S200x1
  broadcasts_S200x1_S200x32 : S200x1.Broadcasts S200x32
  inb_S1x1000x32_S1x200x32_0_0_0 : ∀ a, (![0, 0, 0] : Fin 3 → Nat) a + S1x200x32.size a ≤ S1x1000x32.size a
  h_S1x200x32 : 0 < S1x200x32.numel
  shapeCasts_S1x200x32_S200x32 : S1x200x32.ShapeCasts S200x32
  shapeCasts_S200x32_S1x200x32 : S200x32.ShapeCasts S1x200x32
  inb_S1000x128_S200x128_200_0 : ∀ a, (![200, 0] : Fin 2 → Nat) a + S200x128.size a ≤ S1000x128.size a
  inb_S32x1000x128_S1x200x128_0_200_0 : ∀ a, (![0, 200, 0] : Fin 3 → Nat) a + S1x200x128.size a ≤ S32x1000x128.size a
  inb_S32x1000x128_S1x200x128_1_200_0 : ∀ a, (![1, 200, 0] : Fin 3 → Nat) a + S1x200x128.size a ≤ S32x1000x128.size a
  inb_S32x1000x128_S1x200x128_2_200_0 : ∀ a, (![2, 200, 0] : Fin 3 → Nat) a + S1x200x128.size a ≤ S32x1000x128.size a
  inb_S32x1000x128_S1x200x128_3_200_0 : ∀ a, (![3, 200, 0] : Fin 3 → Nat) a + S1x200x128.size a ≤ S32x1000x128.size a
  inb_S32x1000x128_S1x200x128_4_200_0 : ∀ a, (![4, 200, 0] : Fin 3 → Nat) a + S1x200x128.size a ≤ S32x1000x128.size a
  inb_S32x1000x128_S1x200x128_5_200_0 : ∀ a, (![5, 200, 0] : Fin 3 → Nat) a + S1x200x128.size a ≤ S32x1000x128.size a
  inb_S32x1000x128_S1x200x128_6_200_0 : ∀ a, (![6, 200, 0] : Fin 3 → Nat) a + S1x200x128.size a ≤ S32x1000x128.size a
  inb_S32x1000x128_S1x200x128_7_200_0 : ∀ a, (![7, 200, 0] : Fin 3 → Nat) a + S1x200x128.size a ≤ S32x1000x128.size a
  inb_S32x1000x128_S1x200x128_8_200_0 : ∀ a, (![8, 200, 0] : Fin 3 → Nat) a + S1x200x128.size a ≤ S32x1000x128.size a
  inb_S32x1000x128_S1x200x128_9_200_0 : ∀ a, (![9, 200, 0] : Fin 3 → Nat) a + S1x200x128.size a ≤ S32x1000x128.size a
  inb_S32x1000x128_S1x200x128_10_200_0 : ∀ a, (![10, 200, 0] : Fin 3 → Nat) a + S1x200x128.size a ≤ S32x1000x128.size a
  inb_S32x1000x128_S1x200x128_11_200_0 : ∀ a, (![11, 200, 0] : Fin 3 → Nat) a + S1x200x128.size a ≤ S32x1000x128.size a
  inb_S32x1000x128_S1x200x128_12_200_0 : ∀ a, (![12, 200, 0] : Fin 3 → Nat) a + S1x200x128.size a ≤ S32x1000x128.size a
  inb_S32x1000x128_S1x200x128_13_200_0 : ∀ a, (![13, 200, 0] : Fin 3 → Nat) a + S1x200x128.size a ≤ S32x1000x128.size a
  inb_S32x1000x128_S1x200x128_14_200_0 : ∀ a, (![14, 200, 0] : Fin 3 → Nat) a + S1x200x128.size a ≤ S32x1000x128.size a
  inb_S32x1000x128_S1x200x128_15_200_0 : ∀ a, (![15, 200, 0] : Fin 3 → Nat) a + S1x200x128.size a ≤ S32x1000x128.size a
  inb_S32x1000x128_S1x200x128_16_200_0 : ∀ a, (![16, 200, 0] : Fin 3 → Nat) a + S1x200x128.size a ≤ S32x1000x128.size a
  inb_S32x1000x128_S1x200x128_17_200_0 : ∀ a, (![17, 200, 0] : Fin 3 → Nat) a + S1x200x128.size a ≤ S32x1000x128.size a
  inb_S32x1000x128_S1x200x128_18_200_0 : ∀ a, (![18, 200, 0] : Fin 3 → Nat) a + S1x200x128.size a ≤ S32x1000x128.size a
  inb_S32x1000x128_S1x200x128_19_200_0 : ∀ a, (![19, 200, 0] : Fin 3 → Nat) a + S1x200x128.size a ≤ S32x1000x128.size a
  inb_S32x1000x128_S1x200x128_20_200_0 : ∀ a, (![20, 200, 0] : Fin 3 → Nat) a + S1x200x128.size a ≤ S32x1000x128.size a
  inb_S32x1000x128_S1x200x128_21_200_0 : ∀ a, (![21, 200, 0] : Fin 3 → Nat) a + S1x200x128.size a ≤ S32x1000x128.size a
  inb_S32x1000x128_S1x200x128_22_200_0 : ∀ a, (![22, 200, 0] : Fin 3 → Nat) a + S1x200x128.size a ≤ S32x1000x128.size a
  inb_S32x1000x128_S1x200x128_23_200_0 : ∀ a, (![23, 200, 0] : Fin 3 → Nat) a + S1x200x128.size a ≤ S32x1000x128.size a
  inb_S32x1000x128_S1x200x128_24_200_0 : ∀ a, (![24, 200, 0] : Fin 3 → Nat) a + S1x200x128.size a ≤ S32x1000x128.size a
  inb_S32x1000x128_S1x200x128_25_200_0 : ∀ a, (![25, 200, 0] : Fin 3 → Nat) a + S1x200x128.size a ≤ S32x1000x128.size a
  inb_S32x1000x128_S1x200x128_26_200_0 : ∀ a, (![26, 200, 0] : Fin 3 → Nat) a + S1x200x128.size a ≤ S32x1000x128.size a
  inb_S32x1000x128_S1x200x128_27_200_0 : ∀ a, (![27, 200, 0] : Fin 3 → Nat) a + S1x200x128.size a ≤ S32x1000x128.size a
  inb_S32x1000x128_S1x200x128_28_200_0 : ∀ a, (![28, 200, 0] : Fin 3 → Nat) a + S1x200x128.size a ≤ S32x1000x128.size a
  inb_S32x1000x128_S1x200x128_29_200_0 : ∀ a, (![29, 200, 0] : Fin 3 → Nat) a + S1x200x128.size a ≤ S32x1000x128.size a
  inb_S32x1000x128_S1x200x128_30_200_0 : ∀ a, (![30, 200, 0] : Fin 3 → Nat) a + S1x200x128.size a ≤ S32x1000x128.size a
  inb_S32x1000x128_S1x200x128_31_200_0 : ∀ a, (![31, 200, 0] : Fin 3 → Nat) a + S1x200x128.size a ≤ S32x1000x128.size a
  inb_S1000x1_S200x1_200_0 : ∀ a, (![200, 0] : Fin 2 → Nat) a + S200x1.size a ≤ S1000x1.size a
  inb_S1x1000x32_S1x200x32_0_200_0 : ∀ a, (![0, 200, 0] : Fin 3 → Nat) a + S1x200x32.size a ≤ S1x1000x32.size a
  inb_S1000x128_S200x128_400_0 : ∀ a, (![400, 0] : Fin 2 → Nat) a + S200x128.size a ≤ S1000x128.size a
  inb_S32x1000x128_S1x200x128_0_400_0 : ∀ a, (![0, 400, 0] : Fin 3 → Nat) a + S1x200x128.size a ≤ S32x1000x128.size a
  inb_S32x1000x128_S1x200x128_1_400_0 : ∀ a, (![1, 400, 0] : Fin 3 → Nat) a + S1x200x128.size a ≤ S32x1000x128.size a
  inb_S32x1000x128_S1x200x128_2_400_0 : ∀ a, (![2, 400, 0] : Fin 3 → Nat) a + S1x200x128.size a ≤ S32x1000x128.size a
  inb_S32x1000x128_S1x200x128_3_400_0 : ∀ a, (![3, 400, 0] : Fin 3 → Nat) a + S1x200x128.size a ≤ S32x1000x128.size a
  inb_S32x1000x128_S1x200x128_4_400_0 : ∀ a, (![4, 400, 0] : Fin 3 → Nat) a + S1x200x128.size a ≤ S32x1000x128.size a
  inb_S32x1000x128_S1x200x128_5_400_0 : ∀ a, (![5, 400, 0] : Fin 3 → Nat) a + S1x200x128.size a ≤ S32x1000x128.size a
  inb_S32x1000x128_S1x200x128_6_400_0 : ∀ a, (![6, 400, 0] : Fin 3 → Nat) a + S1x200x128.size a ≤ S32x1000x128.size a
  inb_S32x1000x128_S1x200x128_7_400_0 : ∀ a, (![7, 400, 0] : Fin 3 → Nat) a + S1x200x128.size a ≤ S32x1000x128.size a
  inb_S32x1000x128_S1x200x128_8_400_0 : ∀ a, (![8, 400, 0] : Fin 3 → Nat) a + S1x200x128.size a ≤ S32x1000x128.size a
  inb_S32x1000x128_S1x200x128_9_400_0 : ∀ a, (![9, 400, 0] : Fin 3 → Nat) a + S1x200x128.size a ≤ S32x1000x128.size a
  inb_S32x1000x128_S1x200x128_10_400_0 : ∀ a, (![10, 400, 0] : Fin 3 → Nat) a + S1x200x128.size a ≤ S32x1000x128.size a
  inb_S32x1000x128_S1x200x128_11_400_0 : ∀ a, (![11, 400, 0] : Fin 3 → Nat) a + S1x200x128.size a ≤ S32x1000x128.size a
  inb_S32x1000x128_S1x200x128_12_400_0 : ∀ a, (![12, 400, 0] : Fin 3 → Nat) a + S1x200x128.size a ≤ S32x1000x128.size a
  inb_S32x1000x128_S1x200x128_13_400_0 : ∀ a, (![13, 400, 0] : Fin 3 → Nat) a + S1x200x128.size a ≤ S32x1000x128.size a
  inb_S32x1000x128_S1x200x128_14_400_0 : ∀ a, (![14, 400, 0] : Fin 3 → Nat) a + S1x200x128.size a ≤ S32x1000x128.size a
  inb_S32x1000x128_S1x200x128_15_400_0 : ∀ a, (![15, 400, 0] : Fin 3 → Nat) a + S1x200x128.size a ≤ S32x1000x128.size a
  inb_S32x1000x128_S1x200x128_16_400_0 : ∀ a, (![16, 400, 0] : Fin 3 → Nat) a + S1x200x128.size a ≤ S32x1000x128.size a
  inb_S32x1000x128_S1x200x128_17_400_0 : ∀ a, (![17, 400, 0] : Fin 3 → Nat) a + S1x200x128.size a ≤ S32x1000x128.size a
  inb_S32x1000x128_S1x200x128_18_400_0 : ∀ a, (![18, 400, 0] : Fin 3 → Nat) a + S1x200x128.size a ≤ S32x1000x128.size a
  inb_S32x1000x128_S1x200x128_19_400_0 : ∀ a, (![19, 400, 0] : Fin 3 → Nat) a + S1x200x128.size a ≤ S32x1000x128.size a
  inb_S32x1000x128_S1x200x128_20_400_0 : ∀ a, (![20, 400, 0] : Fin 3 → Nat) a + S1x200x128.size a ≤ S32x1000x128.size a
  inb_S32x1000x128_S1x200x128_21_400_0 : ∀ a, (![21, 400, 0] : Fin 3 → Nat) a + S1x200x128.size a ≤ S32x1000x128.size a
  inb_S32x1000x128_S1x200x128_22_400_0 : ∀ a, (![22, 400, 0] : Fin 3 → Nat) a + S1x200x128.size a ≤ S32x1000x128.size a
  inb_S32x1000x128_S1x200x128_23_400_0 : ∀ a, (![23, 400, 0] : Fin 3 → Nat) a + S1x200x128.size a ≤ S32x1000x128.size a
  inb_S32x1000x128_S1x200x128_24_400_0 : ∀ a, (![24, 400, 0] : Fin 3 → Nat) a + S1x200x128.size a ≤ S32x1000x128.size a
  inb_S32x1000x128_S1x200x128_25_400_0 : ∀ a, (![25, 400, 0] : Fin 3 → Nat) a + S1x200x128.size a ≤ S32x1000x128.size a
  inb_S32x1000x128_S1x200x128_26_400_0 : ∀ a, (![26, 400, 0] : Fin 3 → Nat) a + S1x200x128.size a ≤ S32x1000x128.size a
  inb_S32x1000x128_S1x200x128_27_400_0 : ∀ a, (![27, 400, 0] : Fin 3 → Nat) a + S1x200x128.size a ≤ S32x1000x128.size a
  inb_S32x1000x128_S1x200x128_28_400_0 : ∀ a, (![28, 400, 0] : Fin 3 → Nat) a + S1x200x128.size a ≤ S32x1000x128.size a
  inb_S32x1000x128_S1x200x128_29_400_0 : ∀ a, (![29, 400, 0] : Fin 3 → Nat) a + S1x200x128.size a ≤ S32x1000x128.size a
  inb_S32x1000x128_S1x200x128_30_400_0 : ∀ a, (![30, 400, 0] : Fin 3 → Nat) a + S1x200x128.size a ≤ S32x1000x128.size a
  inb_S32x1000x128_S1x200x128_31_400_0 : ∀ a, (![31, 400, 0] : Fin 3 → Nat) a + S1x200x128.size a ≤ S32x1000x128.size a
  inb_S1000x1_S200x1_400_0 : ∀ a, (![400, 0] : Fin 2 → Nat) a + S200x1.size a ≤ S1000x1.size a
  inb_S1x1000x32_S1x200x32_0_400_0 : ∀ a, (![0, 400, 0] : Fin 3 → Nat) a + S1x200x32.size a ≤ S1x1000x32.size a
  inb_S1000x128_S200x128_600_0 : ∀ a, (![600, 0] : Fin 2 → Nat) a + S200x128.size a ≤ S1000x128.size a
  inb_S32x1000x128_S1x200x128_0_600_0 : ∀ a, (![0, 600, 0] : Fin 3 → Nat) a + S1x200x128.size a ≤ S32x1000x128.size a
  inb_S32x1000x128_S1x200x128_1_600_0 : ∀ a, (![1, 600, 0] : Fin 3 → Nat) a + S1x200x128.size a ≤ S32x1000x128.size a
  inb_S32x1000x128_S1x200x128_2_600_0 : ∀ a, (![2, 600, 0] : Fin 3 → Nat) a + S1x200x128.size a ≤ S32x1000x128.size a
  inb_S32x1000x128_S1x200x128_3_600_0 : ∀ a, (![3, 600, 0] : Fin 3 → Nat) a + S1x200x128.size a ≤ S32x1000x128.size a
  inb_S32x1000x128_S1x200x128_4_600_0 : ∀ a, (![4, 600, 0] : Fin 3 → Nat) a + S1x200x128.size a ≤ S32x1000x128.size a
  inb_S32x1000x128_S1x200x128_5_600_0 : ∀ a, (![5, 600, 0] : Fin 3 → Nat) a + S1x200x128.size a ≤ S32x1000x128.size a
  inb_S32x1000x128_S1x200x128_6_600_0 : ∀ a, (![6, 600, 0] : Fin 3 → Nat) a + S1x200x128.size a ≤ S32x1000x128.size a
  inb_S32x1000x128_S1x200x128_7_600_0 : ∀ a, (![7, 600, 0] : Fin 3 → Nat) a + S1x200x128.size a ≤ S32x1000x128.size a
  inb_S32x1000x128_S1x200x128_8_600_0 : ∀ a, (![8, 600, 0] : Fin 3 → Nat) a + S1x200x128.size a ≤ S32x1000x128.size a
  inb_S32x1000x128_S1x200x128_9_600_0 : ∀ a, (![9, 600, 0] : Fin 3 → Nat) a + S1x200x128.size a ≤ S32x1000x128.size a
  inb_S32x1000x128_S1x200x128_10_600_0 : ∀ a, (![10, 600, 0] : Fin 3 → Nat) a + S1x200x128.size a ≤ S32x1000x128.size a
  inb_S32x1000x128_S1x200x128_11_600_0 : ∀ a, (![11, 600, 0] : Fin 3 → Nat) a + S1x200x128.size a ≤ S32x1000x128.size a
  inb_S32x1000x128_S1x200x128_12_600_0 : ∀ a, (![12, 600, 0] : Fin 3 → Nat) a + S1x200x128.size a ≤ S32x1000x128.size a
  inb_S32x1000x128_S1x200x128_13_600_0 : ∀ a, (![13, 600, 0] : Fin 3 → Nat) a + S1x200x128.size a ≤ S32x1000x128.size a
  inb_S32x1000x128_S1x200x128_14_600_0 : ∀ a, (![14, 600, 0] : Fin 3 → Nat) a + S1x200x128.size a ≤ S32x1000x128.size a
  inb_S32x1000x128_S1x200x128_15_600_0 : ∀ a, (![15, 600, 0] : Fin 3 → Nat) a + S1x200x128.size a ≤ S32x1000x128.size a
  inb_S32x1000x128_S1x200x128_16_600_0 : ∀ a, (![16, 600, 0] : Fin 3 → Nat) a + S1x200x128.size a ≤ S32x1000x128.size a
  inb_S32x1000x128_S1x200x128_17_600_0 : ∀ a, (![17, 600, 0] : Fin 3 → Nat) a + S1x200x128.size a ≤ S32x1000x128.size a
  inb_S32x1000x128_S1x200x128_18_600_0 : ∀ a, (![18, 600, 0] : Fin 3 → Nat) a + S1x200x128.size a ≤ S32x1000x128.size a
  inb_S32x1000x128_S1x200x128_19_600_0 : ∀ a, (![19, 600, 0] : Fin 3 → Nat) a + S1x200x128.size a ≤ S32x1000x128.size a
  inb_S32x1000x128_S1x200x128_20_600_0 : ∀ a, (![20, 600, 0] : Fin 3 → Nat) a + S1x200x128.size a ≤ S32x1000x128.size a
  inb_S32x1000x128_S1x200x128_21_600_0 : ∀ a, (![21, 600, 0] : Fin 3 → Nat) a + S1x200x128.size a ≤ S32x1000x128.size a
  inb_S32x1000x128_S1x200x128_22_600_0 : ∀ a, (![22, 600, 0] : Fin 3 → Nat) a + S1x200x128.size a ≤ S32x1000x128.size a
  inb_S32x1000x128_S1x200x128_23_600_0 : ∀ a, (![23, 600, 0] : Fin 3 → Nat) a + S1x200x128.size a ≤ S32x1000x128.size a
  inb_S32x1000x128_S1x200x128_24_600_0 : ∀ a, (![24, 600, 0] : Fin 3 → Nat) a + S1x200x128.size a ≤ S32x1000x128.size a
  inb_S32x1000x128_S1x200x128_25_600_0 : ∀ a, (![25, 600, 0] : Fin 3 → Nat) a + S1x200x128.size a ≤ S32x1000x128.size a
  inb_S32x1000x128_S1x200x128_26_600_0 : ∀ a, (![26, 600, 0] : Fin 3 → Nat) a + S1x200x128.size a ≤ S32x1000x128.size a
  inb_S32x1000x128_S1x200x128_27_600_0 : ∀ a, (![27, 600, 0] : Fin 3 → Nat) a + S1x200x128.size a ≤ S32x1000x128.size a
  inb_S32x1000x128_S1x200x128_28_600_0 : ∀ a, (![28, 600, 0] : Fin 3 → Nat) a + S1x200x128.size a ≤ S32x1000x128.size a
  inb_S32x1000x128_S1x200x128_29_600_0 : ∀ a, (![29, 600, 0] : Fin 3 → Nat) a + S1x200x128.size a ≤ S32x1000x128.size a
  inb_S32x1000x128_S1x200x128_30_600_0 : ∀ a, (![30, 600, 0] : Fin 3 → Nat) a + S1x200x128.size a ≤ S32x1000x128.size a
  inb_S32x1000x128_S1x200x128_31_600_0 : ∀ a, (![31, 600, 0] : Fin 3 → Nat) a + S1x200x128.size a ≤ S32x1000x128.size a
  inb_S1000x1_S200x1_600_0 : ∀ a, (![600, 0] : Fin 2 → Nat) a + S200x1.size a ≤ S1000x1.size a
  inb_S1x1000x32_S1x200x32_0_600_0 : ∀ a, (![0, 600, 0] : Fin 3 → Nat) a + S1x200x32.size a ≤ S1x1000x32.size a
  inb_S1000x128_S200x128_800_0 : ∀ a, (![800, 0] : Fin 2 → Nat) a + S200x128.size a ≤ S1000x128.size a
  inb_S32x1000x128_S1x200x128_0_800_0 : ∀ a, (![0, 800, 0] : Fin 3 → Nat) a + S1x200x128.size a ≤ S32x1000x128.size a
  inb_S32x1000x128_S1x200x128_1_800_0 : ∀ a, (![1, 800, 0] : Fin 3 → Nat) a + S1x200x128.size a ≤ S32x1000x128.size a
  inb_S32x1000x128_S1x200x128_2_800_0 : ∀ a, (![2, 800, 0] : Fin 3 → Nat) a + S1x200x128.size a ≤ S32x1000x128.size a
  inb_S32x1000x128_S1x200x128_3_800_0 : ∀ a, (![3, 800, 0] : Fin 3 → Nat) a + S1x200x128.size a ≤ S32x1000x128.size a
  inb_S32x1000x128_S1x200x128_4_800_0 : ∀ a, (![4, 800, 0] : Fin 3 → Nat) a + S1x200x128.size a ≤ S32x1000x128.size a
  inb_S32x1000x128_S1x200x128_5_800_0 : ∀ a, (![5, 800, 0] : Fin 3 → Nat) a + S1x200x128.size a ≤ S32x1000x128.size a
  inb_S32x1000x128_S1x200x128_6_800_0 : ∀ a, (![6, 800, 0] : Fin 3 → Nat) a + S1x200x128.size a ≤ S32x1000x128.size a
  inb_S32x1000x128_S1x200x128_7_800_0 : ∀ a, (![7, 800, 0] : Fin 3 → Nat) a + S1x200x128.size a ≤ S32x1000x128.size a
  inb_S32x1000x128_S1x200x128_8_800_0 : ∀ a, (![8, 800, 0] : Fin 3 → Nat) a + S1x200x128.size a ≤ S32x1000x128.size a
  inb_S32x1000x128_S1x200x128_9_800_0 : ∀ a, (![9, 800, 0] : Fin 3 → Nat) a + S1x200x128.size a ≤ S32x1000x128.size a
  inb_S32x1000x128_S1x200x128_10_800_0 : ∀ a, (![10, 800, 0] : Fin 3 → Nat) a + S1x200x128.size a ≤ S32x1000x128.size a
  inb_S32x1000x128_S1x200x128_11_800_0 : ∀ a, (![11, 800, 0] : Fin 3 → Nat) a + S1x200x128.size a ≤ S32x1000x128.size a
  inb_S32x1000x128_S1x200x128_12_800_0 : ∀ a, (![12, 800, 0] : Fin 3 → Nat) a + S1x200x128.size a ≤ S32x1000x128.size a
  inb_S32x1000x128_S1x200x128_13_800_0 : ∀ a, (![13, 800, 0] : Fin 3 → Nat) a + S1x200x128.size a ≤ S32x1000x128.size a
  inb_S32x1000x128_S1x200x128_14_800_0 : ∀ a, (![14, 800, 0] : Fin 3 → Nat) a + S1x200x128.size a ≤ S32x1000x128.size a
  inb_S32x1000x128_S1x200x128_15_800_0 : ∀ a, (![15, 800, 0] : Fin 3 → Nat) a + S1x200x128.size a ≤ S32x1000x128.size a
  inb_S32x1000x128_S1x200x128_16_800_0 : ∀ a, (![16, 800, 0] : Fin 3 → Nat) a + S1x200x128.size a ≤ S32x1000x128.size a
  inb_S32x1000x128_S1x200x128_17_800_0 : ∀ a, (![17, 800, 0] : Fin 3 → Nat) a + S1x200x128.size a ≤ S32x1000x128.size a
  inb_S32x1000x128_S1x200x128_18_800_0 : ∀ a, (![18, 800, 0] : Fin 3 → Nat) a + S1x200x128.size a ≤ S32x1000x128.size a
  inb_S32x1000x128_S1x200x128_19_800_0 : ∀ a, (![19, 800, 0] : Fin 3 → Nat) a + S1x200x128.size a ≤ S32x1000x128.size a
  inb_S32x1000x128_S1x200x128_20_800_0 : ∀ a, (![20, 800, 0] : Fin 3 → Nat) a + S1x200x128.size a ≤ S32x1000x128.size a
  inb_S32x1000x128_S1x200x128_21_800_0 : ∀ a, (![21, 800, 0] : Fin 3 → Nat) a + S1x200x128.size a ≤ S32x1000x128.size a
  inb_S32x1000x128_S1x200x128_22_800_0 : ∀ a, (![22, 800, 0] : Fin 3 → Nat) a + S1x200x128.size a ≤ S32x1000x128.size a
  inb_S32x1000x128_S1x200x128_23_800_0 : ∀ a, (![23, 800, 0] : Fin 3 → Nat) a + S1x200x128.size a ≤ S32x1000x128.size a
  inb_S32x1000x128_S1x200x128_24_800_0 : ∀ a, (![24, 800, 0] : Fin 3 → Nat) a + S1x200x128.size a ≤ S32x1000x128.size a
  inb_S32x1000x128_S1x200x128_25_800_0 : ∀ a, (![25, 800, 0] : Fin 3 → Nat) a + S1x200x128.size a ≤ S32x1000x128.size a
  inb_S32x1000x128_S1x200x128_26_800_0 : ∀ a, (![26, 800, 0] : Fin 3 → Nat) a + S1x200x128.size a ≤ S32x1000x128.size a
  inb_S32x1000x128_S1x200x128_27_800_0 : ∀ a, (![27, 800, 0] : Fin 3 → Nat) a + S1x200x128.size a ≤ S32x1000x128.size a
  inb_S32x1000x128_S1x200x128_28_800_0 : ∀ a, (![28, 800, 0] : Fin 3 → Nat) a + S1x200x128.size a ≤ S32x1000x128.size a
  inb_S32x1000x128_S1x200x128_29_800_0 : ∀ a, (![29, 800, 0] : Fin 3 → Nat) a + S1x200x128.size a ≤ S32x1000x128.size a
  inb_S32x1000x128_S1x200x128_30_800_0 : ∀ a, (![30, 800, 0] : Fin 3 → Nat) a + S1x200x128.size a ≤ S32x1000x128.size a
  inb_S32x1000x128_S1x200x128_31_800_0 : ∀ a, (![31, 800, 0] : Fin 3 → Nat) a + S1x200x128.size a ≤ S32x1000x128.size a
  inb_S1000x1_S200x1_800_0 : ∀ a, (![800, 0] : Fin 2 → Nat) a + S200x1.size a ≤ S1000x1.size a
  inb_S1x1000x32_S1x200x32_0_800_0 : ∀ a, (![0, 800, 0] : Fin 3 → Nat) a + S1x200x32.size a ≤ S1x1000x32.size a
  transposes_S32x1000x32_S32x32x1000_0_2_1 : S32x1000x32.Transposes [0, 2, 1] S32x32x1000
  shapeCasts_S32x32x1000_S1024x1000 : S32x32x1000.ShapeCasts S1024x1000
  dot_S1000x1000_S1000x128_S1000x128_1_0_0_1_n_n_wf : DotDims.WF S1000x1000 S1000x128 S1000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1000.size a ≤ S1x1000.size a
  hwx0_0 : ∀ i : grid0.Coords, EltTy.bits .i32 = 32 ∨ (Rect.block (s := S1x1000) S1x1000.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S1000x1.size a
  hwx0_2 : ∀ i : grid0.Coords, EltTy.bits .f32 = 32 ∨ (Rect.block (s := S1000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1000x128.size a ≤ S1024x1000x128.size a
  hwx0_3 : ∀ i : grid0.Coords, EltTy.bits .f32 = 32 ∨ (Rect.block (s := S1024x1000x128) S32x1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1000x32.size a ≤ S32x1000x32.size a
  hwx0_4 : ∀ i : grid0.Coords, EltTy.bits .f32 = 32 ∨ (Rect.block (s := S32x1000x32) S1x1000x32.size (cc0_transform_4 i) (hinb0_4 i)).WholeWords (EltTy.packing .f32)

variable [Facts₀]

def dot_S1000x1000_S1000x128_S1000x128_1_0_0_1_n_n : DotDims S1000x1000 S1000x128 S1000x128 where
  lhsContracting := [1]
  rhsContracting := [0]
  lhsNonContracting := [0]
  rhsNonContracting := [1]
  lhsBatch := []
  rhsBatch := []
  wf := dot_S1000x1000_S1000x128_S1000x128_1_0_0_1_n_n_wf

abbrev win0_0 : Pipeline.Window sig grid0 :=
  Pipeline.Window.ofSpec (Memref.whole main_arg1) S1x1000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S32x1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1000x128 : Shape := ⟨3, ![1024, 1000, 128]⟩
abbrev S1x1000 : Shape := ⟨2, ![1, 1000]⟩
abbrev S1000x128 : Shape := ⟨2, ![1000, 128]⟩
abbrev S1000 : Shape := ⟨1, ![1000]⟩
abbrev S_ : Shape := ⟨0, ![]⟩
abbrev S1x1000x1 : Shape := ⟨3, ![1, 1000, 1]⟩
abbrev S1 : Shape := ⟨1, ![1]⟩
abbrev S1x1x1 : Shape := ⟨3, ![1, 1, 1]⟩
abbrev S1x1000x128 : Shape := ⟨3, ![1, 1000, 128]⟩
abbrev S1024x1000 : Shape := ⟨2, ![1024, 1000]⟩

abbrev nBuf : Space → Nat
  | .hbm => 34
  | .vmem => 0
  | .smem => 0
  | _ => 0

abbrev bufTy : (tb : Table) → Fin (tcTables nBuf tb) → BufTy
  | .hbm, ⟨0, _⟩ => ⟨S1024x1000x128, .f32⟩
  | .hbm, ⟨1, _⟩ => ⟨S1x1000, .i32⟩
  | .hbm, ⟨2, _⟩ => ⟨S1000x128, .f32⟩
  | .hbm, ⟨3, _⟩ => ⟨S1000, .f32⟩
  | .hbm, ⟨4, _⟩ => ⟨S_, .i32⟩
  | .hbm, ⟨5, _⟩ => ⟨S1x1000, .i32⟩
  | .hbm, ⟨6, _⟩ => ⟨S1x1000, .i1⟩
  | .hbm, ⟨7, _⟩ => ⟨S_, .i32⟩
  | .hbm, ⟨8, _⟩ => ⟨S1x1000, .i32⟩
  | .hbm, ⟨9, _⟩ => ⟨S1x1000, .i32⟩
  | .hbm, ⟨10, _⟩ => ⟨S1x1000, .i32⟩
  | .hbm, ⟨11, _⟩ => ⟨S1x1000x1, .i32⟩
  | .hbm, ⟨12, _⟩ => ⟨S1, .i32⟩
  | .hbm, ⟨13, _⟩ => ⟨S_, .i32⟩
  | .hbm, ⟨14, _⟩ => ⟨S1x1000x1, .i32⟩
  | .hbm, ⟨15, _⟩ => ⟨S1x1000x1, .i1⟩
  | .hbm, ⟨16, _⟩ => ⟨S1x1x1, .i32⟩
  | .hbm, ⟨17, _⟩ => ⟨S1x1000x1, .i32⟩
  | .hbm, ⟨18, _⟩ => ⟨S1x1000x1, .i1⟩
  | .hbm, ⟨19, _⟩ => ⟨S1x1000x1, .i1⟩
  | .hbm, ⟨20, _⟩ => ⟨S_, .i1⟩
  | .hbm, ⟨21, _⟩ => ⟨S1x1000, .i1⟩
  | .hbm, ⟨22, _⟩ => ⟨S1x1000x128, .f32⟩
  | .hbm, ⟨23, _⟩ => ⟨S1x1000x128, .i1⟩
  | .hbm, ⟨24, _⟩ => ⟨S_, .f32⟩
  | .hbm, ⟨25, _⟩ => ⟨S1x1000x128, .f32⟩
  | .hbm, ⟨26, _⟩ => ⟨S1x1000x128, .f32⟩
  | .hbm, ⟨27, _⟩ => ⟨S1024x1000x128, .f32⟩
  | .hbm, ⟨28, _⟩ => ⟨S1024x1000x128, .f32⟩
  | .hbm, ⟨29, _⟩ => ⟨S_, .f32⟩
  | .hbm, ⟨30, _⟩ => ⟨S1024x1000, .f32⟩
  | .hbm, ⟨31, _⟩ => ⟨S1x1000, .f32⟩
  | .hbm, ⟨32, _⟩ => ⟨S1024x1000, .f32⟩
  | .hbm, ⟨33, _⟩ => ⟨S1024x1000, .f32⟩
  | _, _ => ⟨S1024x1000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩

abbrev nD : Nat := 1
abbrev τ : Topo := Topo.v7x

variable {F : FTy → Type} [FloatOps F]

class Facts₀ : Prop where
  bcast_S_S1x1000 : S_.BroadcastsInDim S1x1000 (![] : Fin 0 → Fin S1x1000.rank)
  bcast_S1x1000_S1x1000x1_0_1 : S1x1000.BroadcastsInDim S1x1000x1 (![0, 1] : Fin 2 → Fin S1x1000x1.rank)
  bcast_S_S1x1000x1 : S_.BroadcastsInDim S1x1000x1 (![] : Fin 0 → Fin S1x1000x1.rank)
  bcast_S1_S1x1x1_2 : S1.BroadcastsInDim S1x1x1 (![2] : Fin 1 → Fin S1x1x1.rank)
  bcast_S1x1x1_S1x1000x1_0_1_2 : S1x1x1.BroadcastsInDim S1x1000x1 (![0, 1, 2] : Fin 3 → Fin S1x1000x1.rank)
  reducesTo_S1x1000x1_S1x1000_d2 : S1x1000x1.ReducesTo [2] S1x1000
  h_S_ : 0 < S_.numel
  bcast_S1x1000_S1x1000x128_0_1 : S1x1000.BroadcastsInDim S1x1000x128 (![0, 1] : Fin 2 → Fin S1x1000x128.rank)
  bcast_S_S1x1000x128 : S_.BroadcastsInDim S1x1000x128 (![] : Fin 0 → Fin S1x1000x128.rank)
  bcast_S1x1000x128_S1024x1000x128_0_1_2 : S1x1000x128.BroadcastsInDim S1024x1000x128 (![0, 1, 2] : Fin 3 → Fin S1024x1000x128.rank)
  reducesTo_S1024x1000x128_S1024x1000_d2 : S1024x1000x128.ReducesTo [2] S1024x1000
  bcast_S1000_S1x1000_1 : S1000.BroadcastsInDim S1x1000 (![1] : Fin 1 → Fin S1x1000.rank)
  bcast_S1x1000_S1024x1000_0_1 : S1x1000.BroadcastsInDim S1024x1000 (![0, 1] : Fin 2 → Fin S1024x1000.rank)
  gather_S1000x128_S1x1000x1_S1x1000x128_2_0_n_n_0_2_1128_wf : GatherDims.WF S1000x128 S1x1000x1 S1x1000x128 [2] [0] [] [0] [] 2 ![1, 128]

variable [Facts₀]

def gather_S1000x128_S1x1000x1_S1x1000x128_2_0_n_n_0_2_1128 : GatherDims S1000x128 S1x1000x1 S1x1000x128 where
  offsetDims := [2]
  collapsedSliceDims := [0]
  operandBatchingDims := []
  startIndicesBatchingDims := []
  startIndexMap := [0]
  indexVectorDim := 2
  sliceSizes := ![1, 128]
  wf := gather_S1000x128_S1x1000x1_S1x1000x128_2_0_n_n_0_2_1128_wf

class Facts : Prop extends Facts₀ where

variable [Facts]
-- ==== Proof.Spec.lean ====
/-
  The function both programs compute, stated once over the argument arrays.

  For a batch row `b` and a drug `d` the logit is the inner product, over the 128 embedding coordinates, of the
  table row the drug's id selects with the cell representation of `(b, d)`, plus the drug's bias:

      logit b d = (∑ e, table[ids[d], e] · cell[b, d, e]) + bias[d].

  The selected row is written totally: an id that names no row of the 1000-row table selects the zero row. This is
  what a product with a one-hot row computes with no hypothesis on the id; a lookup by index agrees with it as
  soon as the id is in range.
-/
import Idealize.ShloMosaic.PureOps.Ideal
import Idealize.ShloMosaic.Lib.ValueIdx

noncomputable section

namespace Cert.DrugLogits

open Idealize.ShloMosaic Idealize.ShloMosaic.ValueIdx

/-- Coordinate `e` of the table row that drug `d`'s id selects (the zero row when the id, read as a natural
    number, is not below 1000). -/
def tableRow (ids : IVec ⟨2, ![1, 1000]⟩ 32) (emb : FVec Ideal ⟨2, ![1000, 128]⟩ .f32) (d : Fin 1000) (e : Fin 128) : EReal :=
  if h : (ids (ix2 (0 : Fin 1) d)).toNat < 1000 then emb (ix2 (⟨(ids (ix2 (0 : Fin 1) d)).toNat, h⟩ : Fin 1000) e) else 0

/-- The logit of batch row `b` and drug `d`. -/
def logitAt (cell : FVec Ideal ⟨3, ![1024, 1000, 128]⟩ .f32) (ids : IVec ⟨2, ![1, 1000]⟩ 32)
    (emb : FVec Ideal ⟨2, ![1000, 128]⟩ .f32) (bias : FVec Ideal ⟨1, ![1000]⟩ .f32) (b : Fin 1024) (d : Fin 1000) : EReal :=
  (∑ e : Fin 128, tableRow ids emb d e * cell (ix3 b d e)) + bias (ix1 d)

/-- The whole result array, batch-major: entry `(b, d)` is `logitAt … b d`. -/
def logits (cell : FVec Ideal ⟨3, ![1024, 1000, 128]⟩ .f32) (ids : IVec ⟨2, ![1, 1000]⟩ 32)
    (emb : FVec Ideal ⟨2, ![1000, 128]⟩ .f32) (bias : FVec Ideal ⟨1, ![1000]⟩ .f32) : FVec Ideal ⟨2, ![1024, 1000]⟩ .f32 :=
  fun i => logitAt cell ids emb bias (i 0) (i 1)

theorem logits_apply (cell : FVec Ideal ⟨3, ![1024, 1000, 128]⟩ .f32) (ids : IVec ⟨2, ![1, 1000]⟩ 32)
    (emb : FVec Ideal ⟨2, ![1000, 128]⟩ .f32) (bias : FVec Ideal ⟨1, ![1000]⟩ .f32) (b : Fin 1024) (d : Fin 1000) :
    logits cell ids emb bias (ix2 b d) = logitAt cell ids emb bias b d := rfl

/-- With the id in range the selected row is the table's row at the id. -/
theorem tableRow_of_lt (ids : IVec ⟨2, ![1, 1000]⟩ 32) (emb : FVec Ideal ⟨2, ![1000, 128]⟩ .f32) (d : Fin 1000) (e : Fin 128)
    (h : (ids (ix2 (0 : Fin 1) d)).toNat < 1000) :
    tableRow ids emb d e = emb (ix2 (⟨(ids (ix2 (0 : Fin 1) d)).toNat, h⟩ : Fin 1000) e) := dif_pos h

end Cert.DrugLogits

end
-- ==== Proof.KCols.lean ====
/-
  One column of the kernel's block. For a chunk of 200 drugs the kernel multiplies the chunk's 200×128 slab of
  gathered table rows, entry by entry, with the 200×128 slab of one batch row's cell representations, and sums each
  row over its 128 lanes: entry `r` of the resulting column is the inner product  ∑ e, rows[r, e] · cell[0, r, e].
  The lane sum starts from its neutral accumulator, so at the extended reals it is the plain finite sum.
-/
import Idealize.ShloMosaic.PureOps.Ideal.Laws
import Idealize.ShloMosaic.Lib.ValueIdx
import Idealize.ShloMosaic.Lib.ValueLayout
import Idealize.ShloMosaic.Lib.Pipeline.Value

noncomputable section

namespace Cert.DrugLogits

open Idealize.ShloMosaic Idealize.ShloMosaic.ValueIdx

/-- A length-`a` vector cast to an `a × 1` column reads, at `(r, 0)`, the vector at `r`. -/
theorem shapeCast_a_a1_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- Entry `r` of the column: the inner product of row `r` of the two slabs. -/
theorem column_apply (dd : FVec Ideal ⟨2, ![200, 128]⟩ .f32) (cs : FVec Ideal ⟨3, ![1, 200, 128]⟩ .f32)
    (h1 : (⟨3, ![1, 200, 128]⟩ : Shape).ShapeCasts ⟨2, ![200, 128]⟩)
    (h2 : (⟨2, ![200, 128]⟩ : Shape).Reduces [1] ⟨1, ![200]⟩)
    (h3 : FKind.Formats .f32) (h4 : (0x00000000#32 : BitVec 32) = FKind.add.neutral .f32 h3)
    (h5 : (⟨1, ![200]⟩ : Shape).ShapeCasts ⟨2, ![200, 1]⟩) (r : Fin 200) (u : Fin 1) :
    shapeCast ⟨2, ![200, 1]⟩
        (multiReduction (F := Ideal) .add [1] ⟨1, ![200]⟩ (mulf dd (shapeCast ⟨2, ![200, 128]⟩ cs h1)) 0x00000000#32 h2 h3 h4)
        h5 (ix2 r u)
      = ∑ e : Fin 128, dd (ix2 r e) * cs (ix3 (0 : Fin 1) r e) := by
  rw [shapeCast_a_a1_apply, Ideal.multiReduction_add_single]
  show ∑ e : Fin 128, mulf dd (shapeCast ⟨2, ![200, 128]⟩ cs h1) (h2.lift (ix1 r) e) = _
  refine Finset.sum_congr rfl fun e _ => ?_
  have hl : h2.lift (ix1 r) e = ix2 r e :=
    funext fun c => Fin.ext (by match c with | ⟨0, _⟩ => rfl | ⟨1, _⟩ => rfl)
  rw [hl, mulf_apply, shapeCast_1ab_ab_apply]

end Cert.DrugLogits

end
-- ==== Proof.KBlock.lean ====
/-
  What one grid point stores, as ONE function of the buffers it reads.

  At a grid point the kernel holds the 1000×128 gathered table rows `D`, the 1000×1 bias column, and a block of 32
  batch rows of cell representations (32×1000×128). It writes a 1×1000×32 block, drugs-major: entry (0, d, b) is

      (∑ e, D[d, e] · cell[b, d, e]) + bias[d, 0].

  The kernel produces the block in five chunks of 200 drugs. Within a chunk it forms, for each of the 32 batch rows,
  the column of 200 inner products (`colOf`), lays the 32 columns side by side, adds the bias column repeated along
  the batch axis, and stores the 200×32 tile at the chunk's rows (`blockTerm`). `piece_agree` says that such a tile,
  computed from the chunk's slabs of the buffers, is the restriction of the one function `blockOut` to the chunk's rows.
-/
import proofs.«115791_g29781303230965_cont_9to1_2286_11_alg».proof.Proof.Gen.KernelIdeal
import proofs.«115791_g29781303230965_cont_9to1_2286_11_alg».proof.Proof.KCols

noncomputable section

namespace Cert.KernelIdeal.Hand

open Cert.KernelIdeal Cert.KernelIdeal.Gen Idealize.ShloMosaic Idealize.ShloMosaic.ValueIdx

variable {F : FTy → Type} [FloatOps F]

/-- The column of one batch row within a chunk: row sums of the entrywise product of the two 200×128 slabs. -/
def colOf (dd : Vec F S200x128 .f32) (cs : Vec F S1x200x128 .f32) : FVec F S200x1 .f32 :=
  shapeCast S200x1
    (multiReduction .add [1] S200 (mulf dd (shapeCast S200x128 cs shapeCasts_S1x200x128_S200x128)) 0x00000000#32
      reduces_S200x128_S200 (.inl rfl) rfl)
    shapeCasts_S200_S200x1

/-- The tile a chunk stores: its 32 columns side by side, plus the bias column repeated along the batch axis. -/
def blockTerm (dd : Vec F S200x128 .f32) (cs : Fin 32 → Vec F S1x200x128 .f32) (bias : Vec F S200x1 .f32)
    (hc : Shape.Concatenates (List.replicate 32 S200x1) S200x32 1) :
    FVec F S1x200x32 .f32 :=
  shapeCast S1x200x32
    (addf (concatenate S200x32 1 (List.ofFn fun n : Fin 32 => (⟨S200x1, colOf dd (cs n)⟩ : (s : Shape) × (s.Idx → F .f32)))
        (show Shape.Concatenates ((List.ofFn fun n : Fin 32 => (⟨S200x1, colOf dd (cs n)⟩ : (s : Shape) × (s.Idx → F .f32))).map (·.1)) S200x32 1 from hc))
      (broadcastTo S200x32 (shapeCast S200x1 bias shapeCasts_S200x1_S200x1) broadcasts_S200x1_S200x32))
    shapeCasts_S200x32_S1x200x32

/-- The tile at an index: inner product of the chunk's row `r` slabs for batch row `b`, plus the row's bias. -/
theorem blockTerm_apply (dd : Vec Ideal S200x128 .f32) (cs : Fin 32 → Vec Ideal S1x200x128 .f32) (bias : Vec Ideal S200x1 .f32)
    (hc : Shape.Concatenates (List.replicate 32 S200x1) S200x32 1) (u : Fin 1) (r : Fin 200) (b : Fin 32) :
    blockTerm dd cs bias hc (ix3 u r b)
      = (∑ e : Fin 128, dd (ix2 r e) * cs b (ix3 (0 : Fin 1) r e)) + bias (ix2 r (0 : Fin 1)) := by
  unfold blockTerm
  rw [shapeCast_ab_1ab_apply, addf_apply]
  congr 1
  · refine (concatenate_ofFn_unit_apply (t := S200x32) (s₁ := S200x1) 1 (fun n : Fin 32 => colOf dd (cs n)) _ rfl rfl
      (ix2 r b) b rfl (ix2 r (0 : Fin 1)) ?_).trans ?_
    · intro a ha
      match a with
      | ⟨0, _⟩ => rfl
      | ⟨1, _⟩ => exact absurd rfl ha
    · exact Cert.DrugLogits.column_apply dd (cs b) _ _ _ _ _ r 0
  · rw [broadcastTo_apply _ broadcasts_S200x1_S200x32 (ix2 r b) (ix2 r (0 : Fin 1)) (fun a => by
      match a with
      | ⟨0, _⟩ => rfl
      | ⟨1, _⟩ => rfl), shapeCast_self]

/-- The entry of the block a grid point writes, for drug `d` and batch row `b` of the point's 32. -/
def blockOutAt (D : FVec Ideal S1000x128 .f32) (x2 : FVec Ideal S1000x1 .f32) (x3 : FVec Ideal S32x1000x128 .f32)
    (d : Fin 1000) (b : Fin 32) : EReal :=
  (∑ e : Fin 128, D (ix2 d e) * x3 (ix3 b d e)) + x2 (ix2 d (0 : Fin 1))

/-- The whole block, drugs-major. -/
def blockOut (D : FVec Ideal S1000x128 .f32) (x2 : FVec Ideal S1000x1 .f32) (x3 : FVec Ideal S32x1000x128 .f32) :
    FVec Ideal S1x1000x32 .f32 :=
  fun y => blockOutAt D x2 x3 (y 1) (y 2)

theorem inb_rows (o : ℕ) (ho : o + 200 ≤ 1000) : ∀ a, (![o, 0] : Fin 2 → ℕ) a + S200x128.size a ≤ S1000x128.size a := by
  intro a; match a with
  | ⟨0, _⟩ => exact ho
  | ⟨1, _⟩ => exact Nat.le_refl _
theorem inb_bias (o : ℕ) (ho : o + 200 ≤ 1000) : ∀ a, (![o, 0] : Fin 2 → ℕ) a + S200x1.size a ≤ S1000x1.size a := by
  intro a; match a with
  | ⟨0, _⟩ => exact ho
  | ⟨1, _⟩ => exact Nat.le_refl _
theorem inb_cell (o : ℕ) (ho : o + 200 ≤ 1000) (n : Fin 32) :
    ∀ a, (![n.val, o, 0] : Fin 3 → ℕ) a + S1x200x128.size a ≤ S32x1000x128.size a := by
  intro a; match a with
  | ⟨0, _⟩ => exact n.isLt
  | ⟨1, _⟩ => exact ho
  | ⟨2, _⟩ => exact Nat.le_refl _
theorem inb_out (o : ℕ) (ho : o + 200 ≤ 1000) : ∀ a, (![0, o, 0] : Fin 3 → ℕ) a + (![1, 200, 32] : Fin 3 → ℕ) a ≤ S1x1000x32.size a := by
  intro a; match a with
  | ⟨0, _⟩ => exact Nat.le_refl _
  | ⟨1, _⟩ => exact ho
  | ⟨2, _⟩ => exact Nat.le_refl _

/-- A chunk's tile, computed from the chunk's slabs of the buffers (rows `o … o+199`), is the block function at the
    chunk's rows. -/
theorem piece_agree (D : FVec Ideal S1000x128 .f32) (x2 : FVec Ideal S1000x1 .f32) (x3 : FVec Ideal S32x1000x128 .f32)
    (o : ℕ) (ho : o + 200 ≤ 1000) (hc : Shape.Concatenates (List.replicate 32 S200x1) S200x32 1)
    (x : (⟨3, ![1, 200, 32]⟩ : Shape).Idx) :
    blockTerm (View.ld (Val := Elt Ideal) (S := S1000x128) (e' := .f32) D (Rect.unit ![o, 0] S200x128.size (inb_rows o ho)))
        (fun n : Fin 32 => View.ld (Val := Elt Ideal) (S := S32x1000x128) (e' := .f32) x3 (Rect.unit ![n.val, o, 0] S1x200x128.size (inb_cell o ho n)))
        (View.ld (Val := Elt Ideal) (S := S1000x1) (e' := .f32) x2 (Rect.unit ![o, 0] S200x1.size (inb_bias o ho))) hc x
      = blockOut D x2 x3 ((Rect.unit (s := S1x1000x32) ![0, o, 0] ![1, 200, 32] (inb_out o ho)).emb x) := by
  obtain ⟨u, r, b, rfl⟩ : ∃ (u : Fin 1) (r : Fin 200) (b : Fin 32), x = ix3 u r b := ⟨x 0, x 1, x 2, eq_ix3 x⟩
  rw [blockTerm_apply]
  have hr : o + r.val < 1000 := by have := r.isLt; omega
  have e1 : ((Rect.unit (s := S1x1000x32) ![0, o, 0] ![1, 200, 32] (inb_out o ho)).emb (ix3 u r b)) 1 = (⟨o + r.val, hr⟩ : Fin 1000) :=
    Fin.ext (by show o + 1 * r.val = o + r.val; omega)
  have e2 : ((Rect.unit (s := S1x1000x32) ![0, o, 0] ![1, 200, 32] (inb_out o ho)).emb (ix3 u r b)) 2 = b :=
    Fin.ext (by show 0 + 1 * b.val = b.val; omega)
  unfold blockOut blockOutAt
  rw [e1, e2]
  congr 1
  · refine Finset.sum_congr rfl fun e _ => ?_
    congr 1
    · exact congrArg D (funext fun a => Fin.ext (by
        match a with
        | ⟨0, _⟩ => show o + 1 * r.val = o + r.val; omega
        | ⟨1, _⟩ => show 0 + 1 * e.val = e.val; omega))
    · exact congrArg x3 (funext fun a => Fin.ext (by
        match a with
        | ⟨0, _⟩ => show b.val + 1 * 0 = b.val; omega
        | ⟨1, _⟩ => show o + 1 * r.val = o + r.val; omega
        | ⟨2, _⟩ => show 0 + 1 * e.val = e.val; omega))
  · exact congrArg x2 (funext fun a => Fin.ext (by
      match a with
      | ⟨0, _⟩ => show o + 1 * r.val = o + r.val; omega
      | ⟨1, _⟩ => show 0 + 1 * 0 = 0; omega))

end Cert.KernelIdeal.Hand

end
-- ==== Proof.KPieces.lean ====
/-
  What each of the kernel's two control cases leaves behind at a grid point, as functions of the buffers.

  * At the first grid point the kernel first fills its scratch with the gathered table rows (one covering store), then
    reads the scratch back chunk by chunk; the output block is the block function of those rows.
  * At every later grid point the scratch is only read: it holds what the point before left, and the output block is
    the block function of that.

  In both cases the output buffer is written by five stores of 200×32 tiles that tile it, each the restriction of the
  one block function to its rows; so the buffer reads back as that function everywhere.
-/
import proofs.«115791_g29781303230965_cont_9to1_2286_11_alg».proof.Proof.Gen.KernelIdeal.Frame
import proofs.«115791_g29781303230965_cont_9to1_2286_11_alg».proof.Proof.KBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

theorem zero_off2 : (![0, 0] : Fin 2 → ℕ) = fun _ => 0 := by
  funext a; match a with
  | ⟨0, _⟩ => rfl
  | ⟨1, _⟩ => rfl

/-- The 32 columns of a chunk, each 200×1, laid side by side fill a 200×32 tile. -/
theorem concat32 : Shape.Concatenates (List.replicate 32 S200x1) S200x32 1 :=
  concatenates_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x1_S200x32_d1

/-- A load, through any rectangle, of a buffer that ONE covering store has just filled reads the stored value there. -/
theorem readCov_whole {sig : RefSig} {κ : Kind} {sp : Space} (v : View sig κ sp S1000x128 .f32)
    (inb : ∀ a, (![0, 0] : Fin 2 → ℕ) a + S1000x128.size a ≤ S1000x128.size a) (w : S1000x128.Idx → Elt Ideal .f32) (r : Rect S1000x128) :
    v.readCov [(⟨Rect.unit ![0, 0] S1000x128.size inb, w⟩ : View.Piece (Elt Ideal) S1000x128 .f32)] r.toLoadRect = View.ld w r := by
  rw [View.readCov_eq_canon_ld _ _ _ (fun y => ⟨_, List.mem_singleton_self _, View.mem_set_unit_zero zero_off2 inb y⟩),
    View.canon_unit_zero zero_off2]

/-- Later grid points: the output block is the block function of the scratch as the point before left it. -/
theorem out_B (c : Dev nD) (i : grid0.Coords) (arg1 : Memref sig .tc .vmem S1x1000 .i32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S32x1000x128 .f32) (harg4 : arg4.IsWhole) (arg5 : Memref sig .tc .vmem S1x1000x32 .f32) (harg5 : arg5.IsWhole) (arg6 : Memref sig .tc .vmem S1000x128 .f32) (harg6 : arg6.IsWhole) (hc0 : ¬cond0_0 i)
    (x0 : Vec Ideal S1x1000 .i32) (x1 : Vec Ideal S1000x128 .f32) (x2 : Vec Ideal S1000x1 .f32) (x3 : Vec Ideal S32x1000x128 .f32) (xs0 : Vec Ideal S1000x128 .f32) :
    out0_B_4 (F := Ideal) c i arg1 harg1 arg2 harg2 arg3 harg3 arg4 harg4 arg5 harg5 arg6 harg6 hc0 x0 x1 x2 x3 xs0 = blockOut xs0 x2 x3 := by
  funext y
  unfold out0_B_4
  rw [View.read_writes_eq_canon _ _ _ (cover0_B_4 c i arg1 harg1 arg2 harg2 arg3 harg3 arg4 harg4 arg5 harg5 arg6 harg6 hc0 x0 x1 x2 x3 xs0)]
  refine View.canon_apply_of_pieces (blockOut xs0 x2 x3) _ ?_ y (cover0_B_4 c i arg1 harg1 arg2 harg2 arg3 harg3 arg4 harg4 arg5 harg5 arg6 harg6 hc0 x0 x1 x2 x3 xs0 y)
  unfold kernelRun0_B
  dsimp only
  sl_unfold_words
  simp only [View.readAt_eq_ld, harg6.read_unread, harg4.read_unread, harg3.read_unread]
  intro p hp
  simp only [List.mem_cons, List.not_mem_nil, or_false] at hp
  rcases hp with rfl | rfl | rfl | rfl | rfl
  · intro x; exact piece_agree _ x2 x3 800 (by norm_num) concat32 x
  · intro x; exact piece_agree _ x2 x3 600 (by norm_num) concat32 x
  · intro x; exact piece_agree _ x2 x3 400 (by norm_num) concat32 x
  · intro x; exact piece_agree _ x2 x3 200 (by norm_num) concat32 x
  · intro x; exact piece_agree _ x2 x3 0 (by norm_num) concat32 x

/-- First grid point: the scratch ends holding the gathered table rows (the one-hot product of ids and table). -/
theorem sout_A (c : Dev nD) (i : grid0.Coords) (arg1 : Memref sig .tc .vmem S1x1000 .i32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S32x1000x128 .f32) (harg4 : arg4.IsWhole) (arg5 : Memref sig .tc .vmem S1x1000x32 .f32) (harg5 : arg5.IsWhole) (arg6 : Memref sig .tc .vmem S1000x128 .f32) (harg6 : arg6.IsWhole) (hc0 : cond0_0 i)
    (x0 : Vec Ideal S1x1000 .i32) (x1 : Vec Ideal S1000x128 .f32) (x2 : Vec Ideal S1000x1 .f32) (x3 : Vec Ideal S32x1000x128 .f32) :
    sout0_A_0 (F := Ideal) c i arg1 harg1 arg2 harg2 arg3 harg3 arg4 harg4 arg5 harg5 arg6 harg6 hc0 x0 x1 x2 x3 = k0_pay5 (F := Ideal) x0 x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero zero_off2]
  simp only [View.readAt_eq_ld, harg1.read_unread, harg2.read_unread, View.ld_unit_zero (S := S1x1000) zero_off2,
    View.ld_unit_zero (S := S1000x128) zero_off2]

end Cert.KernelIdeal.Hand

end
-- ==== Proof.KPieceA.lean ====
/-
  The first grid point's output block. The point first fills the scratch with the gathered table rows by one covering
  store; each later load of a chunk of the scratch therefore reads the stored rows at the chunk's rows, and the five
  tiles the point writes are the restrictions of the block function of those rows.
-/
import proofs.«115791_g29781303230965_cont_9to1_2286_11_alg».proof.Proof.KPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

set_option maxHeartbeats 2000000 in
/-- First grid point: the output block is the block function of the rows just gathered. -/
theorem out_A (c : Dev nD) (i : grid0.Coords) (arg1 : Memref sig .tc .vmem S1x1000 .i32) (harg1 : arg1.IsWhole) (arg2 : Memref sig .tc .vmem S1000x128 .f32) (harg2 : arg2.IsWhole) (arg3 : Memref sig .tc .vmem S1000x1 .f32) (harg3 : arg3.IsWhole) (arg4 : Memref sig .tc .vmem S32x1000x128 .f32) (harg4 : arg4.IsWhole) (arg5 : Memref sig .tc .vmem S1x1000x32 .f32) (harg5 : arg5.IsWhole) (arg6 : Memref sig .tc .vmem S1000x128 .f32) (harg6 : arg6.IsWhole) (hc0 : cond0_0 i)
    (x0 : Vec Ideal S1x1000 .i32) (x1 : Vec Ideal S1000x128 .f32) (x2 : Vec Ideal S1000x1 .f32) (x3 : Vec Ideal S32x1000x128 .f32) :
    out0_A_4 (F := Ideal) c i arg1 harg1 arg2 harg2 arg3 harg3 arg4 harg4 arg5 harg5 arg6 harg6 hc0 x0 x1 x2 x3 = blockOut (k0_pay5 (F := Ideal) x0 x1) x2 x3 := by
  funext y
  unfold out0_A_4
  rw [View.read_writes_eq_canon _ _ _ (cover0_A_4 c i arg1 harg1 arg2 harg2 arg3 harg3 arg4 harg4 arg5 harg5 arg6 harg6 hc0 x0 x1 x2 x3)]
  refine View.canon_apply_of_pieces (blockOut (k0_pay5 (F := Ideal) x0 x1) x2 x3) _ ?_ y (cover0_A_4 c i arg1 harg1 arg2 harg2 arg3 harg3 arg4 harg4 arg5 harg5 arg6 harg6 hc0 x0 x1 x2 x3 y)
  unfold kernelRun0_A
  dsimp only
  sl_unfold_words
  simp only [View.readCov_eq_canon', View.canon_unit_zero (S := S1000x128) zero_off2, View.readAt_eq_ld, harg1.read_unread, harg2.read_unread, harg4.read_unread, harg3.read_unread,
    View.ld_unit_zero (S := S1x1000) zero_off2, View.ld_unit_zero (S := S1000x128) zero_off2]
  generalize k0_pay5 (F := Ideal) x0 x1 = D
  intro p hp
  simp only [List.mem_cons, List.not_mem_nil, or_false] at hp
  rcases hp with rfl | rfl | rfl | rfl | rfl
  · intro x; exact piece_agree D x2 x3 800 (by norm_num) concat32 x
  · intro x; exact piece_agree D x2 x3 600 (by norm_num) concat32 x
  · intro x; exact piece_agree D x2 x3 400 (by norm_num) concat32 x
  · intro x; exact piece_agree D x2 x3 200 (by norm_num) concat32 x
  · intro x; exact piece_agree D x2 x3 0 (by norm_num) concat32 x

end Cert.KernelIdeal.Hand

end
-- ==== Proof.KArrays.lean ====
/-
  The arrays the kernel's region works on, named once.

  * `gatheredRows`: what the scratch holds from the first grid point on — the one-hot product of the ids with the
    table, a 1000×128 array of table rows, one per drug.
  * `outArray`: the 32×1000×32 array the region leaves — for grid point `i`, drug `d` and batch row `b` of the point's
    32, the inner product of drug `d`'s gathered row with the cell representation of batch row `32·i + b`, plus the
    drug's bias. Grid point `i` writes block `i` of it, and the 32 blocks tile it.
-/
import proofs.«115791_g29781303230965_cont_9to1_2286_11_alg».proof.Proof.Gen.KernelIdeal.Frame
import proofs.«115791_g29781303230965_cont_9to1_2286_11_alg».proof.Proof.KBlock

noncomputable section

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The table rows the first grid point gathers into the scratch: the kernel's one-hot product of the id array with
    the table, both as the region finds them. -/
def gatheredRows (c : Dev nD) : FVec Ideal S1000x128 .f32 :=
  k0_pay5 (F := Ideal) (V m c main_arg1) (V m c main_arg2)

/-- Entry `(i, d, b)` of the array the region leaves. -/
def outArrayAt (D : FVec Ideal S1000x128 .f32) (biasCol : FVec Ideal S1000x1 .f32) (cell : FVec Ideal S1024x1000x128 .f32)
    (i : Fin 32) (d : Fin 1000) (b : Fin 32) : EReal :=
  (∑ e : Fin 128, D (ix2 d e) * cell (ix3 (⟨32 * i.val + b.val, by have := i.isLt; have := b.isLt; omega⟩ : Fin 1024) d e))
    + biasCol (ix2 d (0 : Fin 1))

/-- The array the region leaves, as one function of the gathered rows, the bias column and the cell representations. -/
def outArray (D : FVec Ideal S1000x128 .f32) (biasCol : FVec Ideal S1000x1 .f32) (cell : FVec Ideal S1024x1000x128 .f32) :
    FVec Ideal S32x1000x32 .f32 :=
  fun z => outArrayAt D biasCol cell (z 0) (z 1) (z 2)

theorem outArray_apply (D : FVec Ideal S1000x128 .f32) (biasCol : FVec Ideal S1000x1 .f32) (cell : FVec Ideal S1024x1000x128 .f32)
    (i : Fin 32) (d : Fin 1000) (b : Fin 32) : outArray D biasCol cell (ix3 i d b) = outArrayAt D biasCol cell i d b := rfl

end Cert.KernelIdeal.Hand

end
-- ==== Proof.KInv.lean ====
/-
  The scratch holds the gathered rows at every grid point, and every point's output block is the block function of
  them.

  The ids, the table and the bias column are staged whole at every grid point (their windows do not move), so what the
  first point gathers does not depend on the point. The first point stores the gathered rows into the scratch and
  computes its block from them; every later point finds the scratch as the point before left it — by induction still
  the gathered rows — and computes its block from that.
-/
import proofs.«115791_g29781303230965_cont_9to1_2286_11_alg».proof.Proof.KPieceA
import proofs.«115791_g29781303230965_cont_9to1_2286_11_alg».proof.Proof.KArrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The id window and the table window sit at block index (0, 0) at every grid point. -/
theorem idx_fixed : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The id window's block is the whole id array, at every grid point. -/
theorem iblk0_eq (c : Dev nD) (t : Fin cfg0.N) : (iblk m c 0 t : Vec Ideal S1x1000 .i32) = V m c main_arg1 := by
  funext y
  obtain ⟨e0, e1, -, -⟩ := idx_fixed t
  show V m c main_arg1 (((cfg0.win 0).blk t).view.emb y) = V m c main_arg1 y
  refine congrArg (V m c main_arg1) (funext fun a => Fin.ext ?_)
  match a with
  | ⟨0, _⟩ => show win0_0.index t (0 : Fin 2) * 1 + 1 * (y 0).val = (y 0).val; omega
  | ⟨1, _⟩ => show win0_0.index t (1 : Fin 2) * 1000 + 1 * (y 1).val = (y 1).val; omega

/-- The table window's block is the whole table, at every grid point. -/
theorem iblk1_eq (c : Dev nD) (t : Fin cfg0.N) : (iblk m c 1 t : Vec Ideal S1000x128 .f32) = V m c main_arg2 := by
  funext y
  obtain ⟨-, -, e0, e1⟩ := idx_fixed t
  show V m c main_arg2 (((cfg0.win 1).blk t).view.emb y) = V m c main_arg2 y
  refine congrArg (V m c main_arg2) (funext fun a => Fin.ext ?_)
  match a with
  | ⟨0, _⟩ => show win0_1.index t (0 : Fin 2) * 1000 + 1 * (y 0).val = (y 0).val; omega
  | ⟨1, _⟩ => show win0_1.index t (1 : Fin 2) * 128 + 1 * (y 1).val = (y 1).val; omega

/-- What the first point gathers, from the blocks it is handed, is the gathered rows of the arrays. -/
theorem gathered_of_blocks (c : Dev nD) (t : Fin cfg0.N) :
    k0_pay5 (F := Ideal) (iblk m c 0 t) (iblk m c 1 t) = gatheredRows m c := by
  unfold gatheredRows
  rw [iblk0_eq m c t, iblk1_eq m c t]

/-- After every grid point the scratch holds the gathered rows: the first point stores them, every later point
    leaves the scratch as it found it. -/
theorem scratch_inv (c : Dev nD) : ∀ (k : ℕ) (t : Fin cfg0.N), t.val = k →
    (outsAt0 (F := Ideal) m c t.val t.isLt).2 = gatheredRows m c := by
  intro k
  induction k using Nat.strong_induction_on with
  | _ k ih =>
    intro t hk
    by_cases h0 : t.val % 32 = 0
    · rw [outsAt0_A (F := Ideal) m c t h0]
      dsimp only
      exact (sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans
        (gathered_of_blocks m c t)
    · rw [outsAt0_B (F := Ideal) m c t h0]
      dsimp only [sout0_B_0]
      have hpos : t.val ≠ 0 := fun h => h0 (by rw [h])
      have hlt : t.val - 1 < cfg0.N := Nat.lt_of_le_of_lt (Nat.sub_le _ _) t.isLt
      exact ih (t.val - 1) (by omega) ⟨t.val - 1, hlt⟩ rfl

/-- After every grid point the output's staging buffer holds the block function of the gathered rows, the point's
    bias block and the point's cell block. -/
theorem outs_block (c : Dev nD) (t : Fin cfg0.N) :
    (outsAt0 (F := Ideal) m c t.val t.isLt).1 = blockOut (gatheredRows m c) (iblk m c 2 t) (iblk m c 3 t) := by
  by_cases h0 : t.val % 32 = 0
  · rw [outsAt0_A (F := Ideal) m c t h0]
    dsimp only
    exact (out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans
      (congrArg (fun X => blockOut X (iblk m c 2 t) (iblk m c 3 t)) (gathered_of_blocks m c t))
  · rw [outsAt0_B (F := Ideal) m c t h0]
    dsimp only
    have hlt : t.val - 1 < cfg0.N := Nat.lt_of_le_of_lt (Nat.sub_le _ _) t.isLt
    exact (out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
        (outsAt0 (F := Ideal) m c (t.val - 1) hlt).2).trans
      (congrArg (fun X => blockOut X (iblk m c 2 t) (iblk m c 3 t)) (scratch_inv m c (t.val - 1) ⟨t.val - 1, hlt⟩ rfl))

end Cert.KernelIdeal.Hand

end
-- ==== Proof.KFinal.lean ====
/-
  From what each grid point writes to the program's result.

  The region's output is a `[32, 1000, 32]` array; grid point `t` writes block `t` of it (a `[1, 1000, 32]` block at
  offset `t` on the leading axis), and the 32 blocks tile the array. If every point writes the block function of the
  gathered rows, the bias column and ITS 32 batch rows of cell representations (rows `32·t … 32·t + 31`), then the
  whole array is `outArray`: entry `(t, d, b)` is the inner product for drug `d` and batch row `32·t + b`, plus the
  drug's bias (`final_array`).

  After the region the program swaps the last two axes and reads the `[32, 32, 1000]` array row-major as
  `[1024, 1000]`: row `bb` is block `bb / 32`, batch row `bb % 32` of the block (`tail_apply`), so entry `(bb, d)` of the
  result is the inner product for drug `d` and batch row `32·(bb / 32) + bb % 32 = bb`, plus the bias (`tail_outArray`).
-/
import proofs.«115791_g29781303230965_cont_9to1_2286_11_alg».proof.Proof.KArrays
import Idealize.ShloMosaic.Lib.ValueLayout
import Idealize.ShloMosaic.Lib.Pipeline.Value

set_option maxRecDepth 16384

noncomputable section

namespace Cert.KernelIdeal.HandFinal

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window BodyObligation cellOf)

variable (m : (ℓ : Loc nD τ sig) → Buf (Elt Ideal) ℓ)

/-! ## The blocks' places in their arrays -/

theorem N_eq : cfg0.N = 32 := by decide

/-- The printed index maps, decided over the grid: the bias column's one block is the whole column; point `t` reads
    block `t` of the cell representations along the batch axis and writes block `t` of the output along its leading
    axis, both at block index zero on the other axes. -/
theorem idx_facts : ∀ t : Fin cfg0.N,
    win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The bias block at any point is the bias column. -/
theorem biasBlk_apply (c : Dev nD) (t : Fin cfg0.N) (x k : S1000x1.Idx) (hk0 : (k 0).val = (x 0).val) (hk1 : (k 1).val = (x 1).val) :
    (iblk m c 2 t : Vec Ideal S1000x1 .f32) x = (V m c main_v0 : S1000x1.Idx → EReal) k := by
  obtain ⟨e20, e21, -⟩ := idx_facts t
  unfold iblk
  rw [View.read_apply]
  show V m c main_v0 _ = V m c main_v0 _
  congr 1
  funext a
  apply Fin.ext
  match a with
  | ⟨0, _⟩ => show win0_2.index t (0 : Fin 2) * 1000 + 1 * (x 0).val = (k 0).val; rw [e20, hk0]; omega
  | ⟨1, _⟩ => show win0_2.index t (1 : Fin 2) * 1 + 1 * (x 1).val = (k 1).val; rw [e21, hk1]; omega

/-- The cell block at point `t` is batch rows `32·t … 32·t + 31` of the cell representations. -/
theorem cellBlk_apply (c : Dev nD) (t : Fin cfg0.N) (x : S32x1000x128.Idx) (k : S1024x1000x128.Idx)
    (hk0 : (k 0).val = 32 * t.val + (x 0).val) (hk1 : (k 1).val = (x 1).val) (hk2 : (k 2).val = (x 2).val) :
    (iblk m c 3 t : Vec Ideal S32x1000x128 .f32) x = (V m c main_arg0 : S1024x1000x128.Idx → EReal) k := by
  obtain ⟨-, -, e30, e31, e32, -⟩ := idx_facts t
  unfold iblk
  rw [View.read_apply]
  show V m c main_arg0 _ = V m c main_arg0 _
  congr 1
  funext a
  apply Fin.ext
  match a with
  | ⟨0, _⟩ => show win0_3.index t (0 : Fin 3) * 32 + 1 * (x 0).val = (k 0).val; rw [e30, hk0]; omega
  | ⟨1, _⟩ => show win0_3.index t (1 : Fin 3) * 1000 + 1 * (x 1).val = (k 1).val; rw [e31, hk1]; omega
  | ⟨2, _⟩ => show win0_3.index t (2 : Fin 3) * 128 + 1 * (x 2).val = (k 2).val; rw [e32, hk2]; omega

/-! ## What a point writes back, and the whole array -/

/-- WHAT POINT `t` WRITES BACK is block `t` of `outArray`, when what the body leaves there is the block function of the
    gathered rows and the point's blocks of the bias column and the cell representations: entry `(0, d, b)` of the
    block is entry `(t, d, b)` of the array, and the point's batch row `b` is the array's batch row `32·t + b`. -/
theorem flushed_eq (c : Dev nD)
    (hinv : ∀ t : Fin cfg0.N, (outsAt0 (F := Ideal) m c t.val t.isLt).1 = blockOut (gatheredRows m c) (iblk m c 2 t) (iblk m c 3 t))
    (t : Fin cfg0.N) :
    (dats (F := Ideal) m 0 c).flushed 4 t
      = ((cfg0.win 4).blk t).view.read (Elt Ideal) (outArray (gatheredRows m c) (V m c main_v0) (V m c main_arg0)) := by
  show (cfg0.win 4).cut (grid0.coords t) ((dats m 0 c).after 4 t) = _
  rw [after0_4, hinv t]
  obtain ⟨-, -, -, -, -, e40, e41, e42⟩ := idx_facts t
  funext j
  have hj0 : (j 0).val < 1 := (j 0).isLt
  have hj1 : (j 1).val < 1000 := (j 1).isLt
  have hj2 : (j 2).val < 32 := (j 2).isLt
  have z0 : ((((cfg0.win 4).blk t).view.emb j) 0).val = t.val := by
    show win0_4.index t (0 : Fin 3) * 1 + 1 * (j 0).val = t.val; rw [e40]; omega
  have z1 : ((((cfg0.win 4).blk t).view.emb j) 1).val = (j 1).val := by
    show win0_4.index t (1 : Fin 3) * 1000 + 1 * (j 1).val = (j 1).val; rw [e41]; omega
  have z2 : ((((cfg0.win 4).blk t).view.emb j) 2).val = (j 2).val := by
    show win0_4.index t (2 : Fin 3) * 32 + 1 * (j 2).val = (j 2).val; rw [e42]; omega
  show blockOutAt (gatheredRows m c) (iblk m c 2 t) (iblk m c 3 t) (⟨(j 1).val, hj1⟩ : Fin 1000) (⟨(j 2).val, hj2⟩ : Fin 32)
    = outArrayAt (gatheredRows m c) (V m c main_v0) (V m c main_arg0) ((((cfg0.win 4).blk t).view.emb j) 0)
        ((((cfg0.win 4).blk t).view.emb j) 1) ((((cfg0.win 4).blk t).view.emb j) 2)
  unfold blockOutAt outArrayAt
  refine congrArg₂ (· + ·) (Finset.sum_congr rfl fun e _ => congrArg₂ (· * ·) ?_ ?_) ?_
  · exact congrArg (gatheredRows m c) (funext fun a => Fin.ext (by
      match a with
      | ⟨0, _⟩ => exact z1.symm
      | ⟨1, _⟩ => rfl))
  · exact cellBlk_apply m c t _ _ (by
      show 32 * ((((cfg0.win 4).blk t).view.emb j) 0).val + ((((cfg0.win 4).blk t).view.emb j) 2).val = 32 * t.val + (j 2).val
      rw [z0, z2]) z1 rfl
  · exact biasBlk_apply m c t _ _ z1 rfl

/-- An index of the output array is in point `t`'s block iff each coordinate is in the block's range on its axis. -/
theorem mem_blk (t : Fin cfg0.N) (i : S32x1000x32.Idx) :
    i ∈ ((cfg0.win 4).blk t).view.set ↔ ∀ a : Fin 3, win0_4.index t a * S1x1000x32.size a ≤ (i a).val
      ∧ (i a).val < win0_4.index t a * S1x1000x32.size a + S1x1000x32.size a := by
  show i ∈ ((View.whole main_v1).slice (win0_4.rect t)).set ↔ _
  rw [View.set_slice_whole, Rect.mem_set_unit]
  exact Iff.rfl

/-- The 32 blocks tile the output array: index `(i, d, b)` is in the block of point `i`, and every point writes its
    block back. -/
theorem cover (i : S32x1000x32.Idx) :
    ∃ t : Fin cfg0.N, (cfg0.win 4).flush t = true ∧ i ∈ ((cfg0.win 4).blk t).view.set := by
  have hi0 : (i 0).val < 32 := (i 0).isLt
  have hi1 : (i 1).val < 1000 := (i 1).isLt
  have hi2 : (i 2).val < 32 := (i 2).isLt
  have ht : (i 0).val < cfg0.N := by rw [N_eq]; exact hi0
  refine ⟨⟨(i 0).val, ht⟩, flush0_4 _, ?_⟩
  rw [mem_blk]
  obtain ⟨-, -, -, -, -, e40', e41, e42⟩ := idx_facts ⟨(i 0).val, ht⟩
  have e40 : win0_4.index ⟨(i 0).val, ht⟩ (0 : Fin 3) = (i 0).val := e40'
  intro a
  match a with
  | ⟨0, _⟩ =>
    show win0_4.index ⟨(i 0).val, ht⟩ (0 : Fin 3) * 1 ≤ (i 0).val ∧ (i 0).val < win0_4.index ⟨(i 0).val, ht⟩ (0 : Fin 3) * 1 + 1
    rw [e40]; omega
  | ⟨1, _⟩ =>
    show win0_4.index ⟨(i 0).val, ht⟩ (1 : Fin 3) * 1000 ≤ (i 1).val ∧ (i 1).val < win0_4.index ⟨(i 0).val, ht⟩ (1 : Fin 3) * 1000 + 1000
    rw [e41]; omega
  | ⟨2, _⟩ =>
    show win0_4.index ⟨(i 0).val, ht⟩ (2 : Fin 3) * 32 ≤ (i 2).val ∧ (i 2).val < win0_4.index ⟨(i 0).val, ht⟩ (2 : Fin 3) * 32 + 32
    rw [e42]; omega

/-- THE ARRAY THE REGION LEAVES is `outArray` of the gathered rows, the bias column and the cell representations, when
    every point leaves its block function in the output's buffer. -/
theorem final_array (c : Dev nD)
    (hinv : ∀ t : Fin cfg0.N, (outsAt0 (F := Ideal) m c t.val t.isLt).1 = blockOut (gatheredRows m c) (iblk m c 2 t) (iblk m c 3 t)) :
    (dats (F := Ideal) m 0 c).arrAt 4 cfg0.N = outArray (gatheredRows m c) (V m c main_v0) (V m c main_arg0) :=
  (dats (F := Ideal) m 0 c).arrAt_eq_of_cover 4 (outArray (gatheredRows m c) (V m c main_v0) (V m c main_arg0))
    (fun t _ => flushed_eq m c hinv t) cover

/-! ## The host lines after the region, read at an index -/

/-- The region's `[32, 1000, 32]` array with its last two axes swapped and then read row-major as `[1024, 1000]`: entry
    `(bb, d)` is the array at block `bb / 32`, drug `d`, batch row `bb % 32` of the block. -/
theorem tail_apply (W : FVec Ideal S32x1000x32 .f32) (bb : Fin 1024) (d : Fin 1000) :
    shapeCast S1024x1000 (transpose S32x32x1000 [0, 2, 1] W transposes_S32x1000x32_S32x32x1000_0_2_1)
        shapeCasts_S32x32x1000_S1024x1000 (ix2 bb d)
      = W (ix3 (⟨bb.val / 32, by have := bb.isLt; omega⟩ : Fin 32) d (⟨bb.val % 32, by omega⟩ : Fin 32)) := by
  rw [shapeCast_apply _ shapeCasts_S32x32x1000_S1024x1000 (ix2 bb d)
    (ix3 (⟨bb.val / 32, by have := bb.isLt; omega⟩ : Fin 32) (⟨bb.val % 32, by omega⟩ : Fin 32) d) (by
      rw [Shape.rowMajor_val_three, Shape.rowMajor_val_two]
      show (bb.val / 32 * 32 + bb.val % 32) * 1000 + d.val = bb.val * 1000 + d.val
      have := Nat.div_add_mod bb.val 32
      have h : bb.val / 32 * 32 + bb.val % 32 = bb.val := by omega
      rw [h])]
  exact transpose_ix3_021_apply W _ _ _ _

/-- So the kernel program's result at `(bb, d)`, from the array the region leaves: the inner product of drug `d`'s
    gathered row with the cell representation of batch row `bb`, plus the drug's bias. -/
theorem tail_outArray (D : FVec Ideal S1000x128 .f32) (biasCol : FVec Ideal S1000x1 .f32) (cell : FVec Ideal S1024x1000x128 .f32)
    (bb : Fin 1024) (d : Fin 1000) :
    shapeCast S1024x1000 (transpose S32x32x1000 [0, 2, 1] (outArray D biasCol cell) transposes_S32x1000x32_S32x32x1000_0_2_1)
        shapeCasts_S32x32x1000_S1024x1000 (ix2 bb d)
      = (∑ e : Fin 128, D (ix2 d e) * cell (ix3 bb d e)) + biasCol (ix2 d (0 : Fin 1)) := by
  rw [tail_apply, outArray_apply]
  unfold outArrayAt
  have hb : (⟨32 * (bb.val / 32) + bb.val % 32, by have := bb.isLt; omega⟩ : Fin 1024) = bb := Fin.ext (by
    show 32 * (bb.val / 32) + bb.val % 32 = bb.val
    omega)
  rw [hb]

end Cert.KernelIdeal.HandFinal

end
-- ==== Proof.KRun.lean ====
/-
  The kernel program's run, read at the result array, and the bias column the region is handed.

  The program is three stretches: one array operation before the region (the bias row [1000] laid out as a column
  [1000, 1]), the region itself, and two array operations after it (the region's output array [32, 1000, 32] with its
  last two axes exchanged, then laid out as the [1024, 1000] result). The frame run says what every array holds at the
  end: an array the region writes holds what the region's proof data computes for it, every other array what the
  operations after the region leave from the contents at the region's entry. Here that statement is read at two places:

  * the result array: the two operations after the region applied to the region's output array, which is kept as the
    one opaque term the proof data gives for it;
  * the bias column at the region's entry: entry (d, 0) of the column is entry d of the bias row.
-/
import proofs.«115791_g29781303230965_cont_9to1_2286_11_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

namespace Cert.KernelIdeal.HandRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after_cons after_nil reshape_result unary_result reshape_result_ne unary_result_ne nullary_result binary_result ternary_result quaternary_result binaryIndexed_result nary4_result nary_result unaryIndexed_result nullary_result_ne binary_result_ne ternary_result_ne quaternary_result_ne binaryIndexed_result_ne nary_result_ne unaryIndexed_result_ne)

variable {F : FTy → Type} [FloatOps F]

/-! ## The bias column at the region's entry -/

/-- The column the region is handed is the bias row laid out as [1000, 1]. -/
theorem biasCol_eq (m : (ℓ : Loc nD τ sig) → Buf (Elt F) ℓ) (c : Dev nD) :
    V m c main_v0 = fun i => shapeCast S1000x1 (m ((c : Thread nD τ).loc main_arg3)) shapeCasts_S1000_S1000x1 i := by
  show StableHlo.after hostOps0 (fun b => m (c, b)) (Proc.devRef .tc main_v0) = _
  after_results
  rfl

/-- Entry (d, 0) of the column is entry d of the row: both sit at position d of the row-major order. -/
theorem biasCol_apply (m : (ℓ : Loc nD τ sig) → Buf (Elt Ideal) ℓ) (c : Dev nD) (d : Fin 1000) :
    (V m c main_v0 : S1000x1.Idx → EReal) (ix2 d (0 : Fin 1)) = (m ((c : Thread nD τ).loc main_arg3) : S1000.Idx → EReal) (ix1 d) := by
  rw [biasCol_eq]
  exact shapeCast_apply (m ((c : Thread nD τ).loc main_arg3) : S1000.Idx → EReal) shapeCasts_S1000_S1000x1 (ix2 d (0 : Fin 1)) (ix1 d) (by
    show ((⟨1, ![1000]⟩ : Shape).rowMajor (ix1 d)).val = ((⟨2, ![1000, 1]⟩ : Shape).rowMajor (ix2 d (0 : Fin 1))).val
    rw [Shape.rowMajor_val_two, Shape.rowMajor_val_one]
    show d.val = d.val * 1 + 0
    omega)

/-! ## The result array after the run -/

/-- What the two operations after the region leave in the result array: the region's output array, its last two
    axes exchanged, laid out as [1024, 1000]. -/
theorem tail_v3 (m : (ℓ : Loc nD τ sig) → Buf (Elt F) ℓ) (c : Dev nD) :
    Pipeline.afterTail₀ cfgs (dats m) 0 (V0 m) [hostOps1] c main_v3
      = shapeCast S1024x1000 (transpose S32x32x1000 [0, 2, 1] ((dats m 0 c).arrAt 4 cfg0.N) transposes_S32x1000x32_S32x32x1000_0_2_1) shapeCasts_S32x32x1000_S1024x1000 := by
  unfold Pipeline.afterTail₀
  show StableHlo.after hostOps1 _ (Proc.devRef .tc main_v3) = _
  after_results
  -- the first of the two reads the region's output array, which the valuation holds at the proof data's term
  have hw : Pipeline.withArrays (cfgs 0).spec c (V0 m c) (fun w => (dats m 0 c).arrAt w (cfgs 0).N) (Proc.devRef .tc main_v1)
      = (dats m 0 c).arrAt 4 cfg0.N :=
    Pipeline.withArrays_arr spec0 launch0.win.arr_inj c (V0 m c) _ 4
  rw [hw]
  rfl

/-- At the compiled mesh, for any values, from any memory with zero counters: every weakly fair execution of the
    program terminates with the result array at the two closing operations applied to the region's output array,
    and the four argument arrays as they were. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v3) = shapeCast S1024x1000 (transpose S32x32x1000 [0, 2, 1] ((dats (F := F) m 0 c).arrAt 4 cfg0.N) transposes_S32x1000x32_S32x32x1000_0_2_1) shapeCasts_S32x32x1000_S1024x1000
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (tail_v3 m c),
      ((h c).1 3).trans (((dats m 0 c).arrAt_in 3 rfl _).trans ((A_eq m c 3).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.HandRun

end
-- ==== Proof.KGather.lean ====
/-
  The kernel's table lookup, read at one entry.

  At its first grid point the kernel fetches the table rows without indexing: it compares every drug's id with the
  column numbers 0 … 999, turns the comparison bits into the numbers 1 and 0, and multiplies the resulting
  1000 × 1000 matrix — row d has a single 1, in the column the id names, or no 1 at all when the id names no column —
  with the 1000 × 128 table, starting from zero. Entry (d, e) of the product is therefore

      ∑ k, [id d = k] · table[k, e],

  and since 1 · x = x and 0 · x = 0 for every extended real x, infinite or not, the sum is the one term table[id d, e]
  when the id, read as a natural number, is below 1000, and is 0 otherwise: the selected row of the specification.
-/
import proofs.«115791_g29781303230965_cont_9to1_2286_11_alg».proof.Proof.Gen.KernelIdeal.Skeleton
import proofs.«115791_g29781303230965_cont_9to1_2286_11_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandGather

open Idealize.ShloMosaic Idealize.ShloMosaic.ValueIdx Cert.KernelIdeal Cert.KernelIdeal.Gen

/-- One comparison bit as an extended real: 1 where the two words are equal, 0 elsewhere. -/
theorem indicator_word (a b : BitVec 32) :
    (FloatOps.sitofp (F := Ideal) .f32 ((IntOp.cmpi .eq a b).setWidth 32) : EReal) = if a = b then 1 else 0 := by
  by_cases h : a = b
  · rw [if_pos h, IntOp.cmpi_eq.2 h]
    show ((((1#1 : BitVec 1).setWidth 32).toInt : ℝ) : EReal) = 1
    rw [show ((1#1 : BitVec 1).setWidth 32).toInt = 1 from by decide]
    simp
  · rw [if_neg h, eq_zero_of_ne_one (fun h1 => h (IntOp.cmpi_eq.1 h1))]
    show ((((0#1 : BitVec 1).setWidth 32).toInt : ℝ) : EReal) = 0
    rw [show ((0#1 : BitVec 1).setWidth 32).toInt = 0 from by decide]
    simp

/-- A 32-bit word is the word of a column number below 1000 exactly when it reads, unsigned, as that number. -/
theorem word_eq_column_iff (w : BitVec 32) (k : Fin 1000) : w = BitVec.ofNat 32 k.val ↔ w.toNat = k.val := by
  have hk : k.val % 2 ^ 32 = k.val := Nat.mod_eq_of_lt (by have := k.isLt; omega)
  constructor
  · intro h
    rw [h, BitVec.toNat_ofNat, hk]
  · intro h
    apply BitVec.eq_of_toNat_eq
    rw [BitVec.toNat_ofNat, hk, h]

/-- The ids laid out as a column and repeated along the rows of the square matrix: entry (d, k) is drug d's id. -/
theorem idColumn_apply (x0 : IVec S1x1000 32) (h1 : S1x1000.ShapeCasts S1000) (h2 : S1000.ShapeCasts S1000x1)
    (h3 : S1000x1.Broadcasts S1000x1000) (d k : Fin 1000) :
    broadcastTo S1000x1000 (shapeCast S1000x1 (shapeCast S1000 x0 h1) h2) h3 (ix2 d k) = x0 (ix2 (0 : Fin 1) d) := by
  rw [broadcastTo_apply _ h3 (ix2 d k) (ix2 d (0 : Fin 1)) (fun a => by
    match a with
    | ⟨0, _⟩ => rfl
    | ⟨1, _⟩ => rfl)]
  rw [shapeCast_apply _ h2 (ix2 d (0 : Fin 1)) (ix1 d) (by
    rw [Shape.rowMajor_val_two, Shape.rowMajor_val_one]
    show d.val = d.val * 1 + 0
    omega)]
  exact shapeCast_1a_a_apply x0 h1 d

/-- Entry (d, k) of the comparison matrix, as an extended real: 1 when drug d's id is the word of column k, else 0. -/
theorem onehot_apply (x0 : IVec S1x1000 32) (h1 : S1x1000.ShapeCasts S1000) (h2 : S1000.ShapeCasts S1000x1)
    (h3 : S1000x1.Broadcasts S1000x1000) (h4 : S1000x1000.Iotas .tc 32 [1]) (h5 : 1 < 32) (d k : Fin 1000) :
    (sitofp .f32 (extui 32 (cmpi .eq (broadcastTo S1000x1000 (shapeCast S1000x1 (shapeCast S1000 x0 h1) h2) h3)
        (iota .tc S1000x1000 32 [1] h4)) h5) : FVec Ideal S1000x1000 .f32) (ix2 d k)
      = if x0 (ix2 (0 : Fin 1) d) = BitVec.ofNat 32 k.val then 1 else 0 := by
  show FloatOps.sitofp (F := Ideal) .f32 ((IntOp.cmpi .eq
      (broadcastTo S1000x1000 (shapeCast S1000x1 (shapeCast S1000 x0 h1) h2) h3 (ix2 d k))
      (iota .tc S1000x1000 32 [1] h4 (ix2 d k))).setWidth 32) = _
  rw [idColumn_apply, iota_single_apply]
  exact indicator_word _ _

/-- The looked-up rows at one entry: the table row the id selects, the zero row when the id names no row. -/
theorem gathered_apply (x0 : Vec Ideal Cert.KernelIdeal.S1x1000 .i32) (x1 : Vec Ideal Cert.KernelIdeal.S1000x128 .f32) (d : Fin 1000) (e : Fin 128) :
    Cert.KernelIdeal.Gen.k0_pay5 (F := Ideal) x0 x1 (Idealize.ShloMosaic.ValueIdx.ix2 d e) = Cert.DrugLogits.tableRow x0 x1 d e := by
  unfold k0_pay5
  dsimp only
  rw [shapeCast_self]
  -- the product into the zero matrix at (d, e): the sum over the contracted index of the products of the entries
  refine (Ideal.matmul_constant_zero_apply dot_S1000x1000_S1000x128_S1000x128_1_0_0_1_n_n none _ x1 (ix2 d e)).trans ?_
  rw [← Equiv.sum_comp (contrEquiv1 dot_S1000x1000_S1000x128_S1000x128_1_0_0_1_n_n 1000 rfl rfl).symm]
  have hl : ∀ c : Fin 1000, dot_S1000x1000_S1000x128_S1000x128_1_0_0_1_n_n.lhsIdx (ix2 d e)
      ((contrEquiv1 dot_S1000x1000_S1000x128_S1000x128_1_0_0_1_n_n 1000 rfl rfl).symm c) = ix2 d c := by
    intro c
    have c2 := contrEquiv1_symm_val dot_S1000x1000_S1000x128_S1000x128_1_0_0_1_n_n 1000 rfl rfl c
    funext ax; apply Fin.ext
    match ax with
    | ⟨0, _⟩ => simp [DotDims.lhsIdx, dot_S1000x1000_S1000x128_S1000x128_1_0_0_1_n_n]; rfl
    | ⟨1, _⟩ => simp [DotDims.lhsIdx, dot_S1000x1000_S1000x128_S1000x128_1_0_0_1_n_n]; exact c2
  have hr : ∀ c : Fin 1000, dot_S1000x1000_S1000x128_S1000x128_1_0_0_1_n_n.rhsIdx (ix2 d e)
      ((contrEquiv1 dot_S1000x1000_S1000x128_S1000x128_1_0_0_1_n_n 1000 rfl rfl).symm c) = ix2 c e := by
    intro c
    have c2 := contrEquiv1_symm_val dot_S1000x1000_S1000x128_S1000x128_1_0_0_1_n_n 1000 rfl rfl c
    funext ax; apply Fin.ext
    match ax with
    | ⟨0, _⟩ => simp [DotDims.rhsIdx, dot_S1000x1000_S1000x128_S1000x128_1_0_0_1_n_n]; exact c2
    | ⟨1, _⟩ => simp [DotDims.rhsIdx, dot_S1000x1000_S1000x128_S1000x128_1_0_0_1_n_n]; rfl
  simp only [hl, hr]
  -- each comparison entry is 1 or 0, so each term is the table entry or 0
  have hterm : ∀ k : Fin 1000,
      (sitofp .f32 (extui 32 (cmpi .eq (broadcastTo S1000x1000 (shapeCast S1000x1 (shapeCast S1000 x0 shapeCasts_S1x1000_S1000)
          shapeCasts_S1000_S1000x1) broadcasts_S1000x1_S1000x1000) (iota .tc S1000x1000 32 [1] iota_S1000x1000_d1_w32)) natLt_1_32)
          : FVec Ideal S1000x1000 .f32) (ix2 d k) * x1 (ix2 k e)
        = if (x0 (ix2 (0 : Fin 1) d)).toNat = k.val then x1 (ix2 k e) else 0 := by
    intro k
    rw [onehot_apply]
    by_cases hk : (x0 (ix2 (0 : Fin 1) d)).toNat = k.val
    · rw [if_pos ((word_eq_column_iff _ k).2 hk), if_pos hk, one_mul]
    · rw [if_neg (fun h => hk ((word_eq_column_iff _ k).1 h)), if_neg hk, zero_mul]
  rw [Finset.sum_congr rfl fun k _ => hterm k]
  -- at most one column matches: the one the id names, if it is below 1000
  by_cases hlt : (x0 (ix2 (0 : Fin 1) d)).toNat < 1000
  · rw [Cert.DrugLogits.tableRow_of_lt x0 x1 d e hlt]
    rw [Finset.sum_eq_single (⟨(x0 (ix2 (0 : Fin 1) d)).toNat, hlt⟩ : Fin 1000)
      (fun b _ hb => if_neg (fun h => hb (Fin.ext h.symm)))
      (fun h => absurd (Finset.mem_univ _) h)]
    exact if_pos rfl
  · rw [show Cert.DrugLogits.tableRow x0 x1 d e = 0 from dif_neg hlt]
    exact Finset.sum_eq_zero fun k _ => if_neg (fun h : (x0 (ix2 (0 : Fin 1) d)).toNat = k.val => hlt (by rw [h]; exact k.isLt))

end Cert.KernelIdeal.HandGather

end
-- ==== Proof.KValue.lean ====
/-
  The kernel program's result is the logits array, for every input.

  The region leaves the 32×1000×32 array whose entry (i, d, b) is the inner product of drug `d`'s gathered table row
  with the cell representation of batch row `32·i + b`, plus the drug's bias. The two host lines after the region swap
  the last two axes and merge the first two, which puts entry (i, d, b) at (32·i + b, d): the batch-major logits. The
  gathered row is the one-hot product of the ids with the table — the table's row at the id, or the zero row for an id
  that names no row — and the bias column is the bias vector reshaped. Hence entry (b, d) of the result is

      (∑ e, tableRow[d, e] · cell[b, d, e]) + bias[d].
-/
import proofs.«115791_g29781303230965_cont_9to1_2286_11_alg».proof.Proof.Spec
import proofs.«115791_g29781303230965_cont_9to1_2286_11_alg».proof.Proof.KInv
import proofs.«115791_g29781303230965_cont_9to1_2286_11_alg».proof.Proof.KFinal
import proofs.«115791_g29781303230965_cont_9to1_2286_11_alg».proof.Proof.KRun
import proofs.«115791_g29781303230965_cont_9to1_2286_11_alg».proof.Proof.KGather

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-- Entry `(d, e)` of the gathered rows is the specification's selected table row of the id array and the table as
    the program was launched with them. -/
theorem gatheredRows_apply (c : Dev nD) (d : Fin 1000) (e : Fin 128) :
    gatheredRows m c (ix2 d e)
      = Cert.DrugLogits.tableRow (m ((c : Thread nD τ).loc main_arg1)) (m ((c : Thread nD τ).loc main_arg2)) d e := by
  unfold gatheredRows
  rw [V_main_arg1, V_main_arg2]
  exact Cert.KernelIdeal.HandGather.gathered_apply _ _ d e

/-- The region's array, through the two host lines after it, is the logits array of the launch arguments. -/
theorem tail_eq_logits (c : Dev nD) :
    shapeCast S1024x1000
        (transpose S32x32x1000 [0, 2, 1] ((dats (F := Ideal) m 0 c).arrAt 4 cfg0.N) transposes_S32x1000x32_S32x32x1000_0_2_1)
        shapeCasts_S32x32x1000_S1024x1000
      = Cert.DrugLogits.logits (m ((c : Thread nD τ).loc main_arg0)) (m ((c : Thread nD τ).loc main_arg1))
          (m ((c : Thread nD τ).loc main_arg2)) (m ((c : Thread nD τ).loc main_arg3)) := by
  rw [Cert.KernelIdeal.HandFinal.final_array m c (outs_block m c)]
  funext j
  obtain ⟨bb, d, rfl⟩ : ∃ (bb : Fin 1024) (d : Fin 1000), j = ix2 bb d := ⟨j 0, j 1, eq_ix2 j⟩
  rw [Cert.KernelIdeal.HandFinal.tail_outArray, Cert.DrugLogits.logits_apply]
  unfold Cert.DrugLogits.logitAt
  rw [Cert.KernelIdeal.HandRun.biasCol_apply, V_main_arg0]
  congr 1
  refine Finset.sum_congr rfl fun e _ => ?_
  rw [gatheredRows_apply]

/-- Every weakly fair execution of the kernel program terminates with its result buffer at the logits array of the
    launch arguments, and the arguments unchanged. -/
theorem run_logits :
    θ_run defs (onTc (τ := τ) (main (F := Ideal))) ⟨m, fun _ => 0, ρ⟩ (fun r => ∀ c : Dev nD,
      r.2.mem ((c.tc : Thread nD τ).loc main_v3)
          = Cert.DrugLogits.logits (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (tail_eq_logits m c), (h c).2⟩)
    (Cert.KernelIdeal.HandRun.run_result (F := Ideal) m ρ)

end Cert.KernelIdeal.HandValue

end
-- ==== Proof.RefTerm.lean ====
/-
  The reference program's result as one pure term of its four argument arrays, operation by operation in the
  order the program applies them:

  * the lookup: an id below zero is moved up by the table's height, 1000; the moved ids are laid out with a
    trailing unit axis; a row is fetched from the table for every id; an id still outside [0, 999] makes its
    whole fetched row the fill value;
  * the fetched rows are repeated along the batch axis, multiplied entry by entry with the cell
    representations, summed over the 128 embedding coordinates, and the bias row, repeated along the batch
    axis, is added.
-/
import proofs.«115791_g29781303230965_cont_9to1_2286_11_alg».proof.Proof.Gen.ReferenceIdeal

noncomputable section

namespace Cert.ReferenceIdeal.Hand

open Cert.ReferenceIdeal Cert.ReferenceIdeal.Gen Idealize.ShloMosaic

variable {F : FTy → Type} [FloatOps F]

/-- The ids after the lookup's wrap of negative ones, with the trailing unit axis the fetch asks for. -/
def wrappedIds (ids : IVec S1x1000 32) : IVec S1x1000x1 32 :=
  broadcastInDim S1x1000x1 ![0, 1] bcast_S1x1000_S1x1000x1_0_1
    (select (cmpi .slt ids (broadcastInDim S1x1000 ![] bcast_S_S1x1000 (constantI S_ 32 0#32)))
      (addi ids (broadcastInDim S1x1000 ![] bcast_S_S1x1000 (constantI S_ 32 1000#32))) ids)

/-- Per drug: is the wrapped id inside [0, 999]? -/
def inTable (w : IVec S1x1000x1 32) : IVec S1x1000 1 :=
  Host.reduce IntOp.andi
    (andi (cmpi .sge w (broadcastInDim S1x1000x1 ![] bcast_S_S1x1000x1 (constantI S_ 32 0#32)))
      (cmpi .sle w (broadcastInDim S1x1000x1 ![0, 1, 2] bcast_S1x1x1_S1x1000x1_0_1_2
        (broadcastInDim S1x1x1 ![2] bcast_S1_S1x1x1_2 (constantI S1 32 999#32)))))
    (constantI S_ 1 1#1) reducesTo_S1x1000x1_S1x1000_d2 h_S_

/-- The fetched rows: the table's row at each wrapped id, the fill value where the id is outside the table. -/
def fetched (emb : FVec F S1000x128 .f32) (ids : IVec S1x1000 32) : FVec F S1x1000x128 .f32 :=
  select (broadcastInDim S1x1000x128 ![0, 1] bcast_S1x1000_S1x1000x128_0_1 (inTable (wrappedIds ids)))
    (Host.gather gather_S1000x128_S1x1000x1_S1x1000x128_2_0_n_n_0_2_1128 emb (wrappedIds ids))
    (broadcastInDim S1x1000x128 ![] bcast_S_S1x1000x128 (constant S_ .f32 0x7FC00000#32))

/-- The reference's result: the sum over the embedding axis of cell representation times fetched row, plus bias. -/
def result (cell : FVec F S1024x1000x128 .f32) (ids : IVec S1x1000 32) (emb : FVec F S1000x128 .f32)
    (bias : FVec F S1000 .f32) : FVec F S1024x1000 .f32 :=
  addf
    (Host.reduceAdd
      (mulf cell (broadcastInDim S1024x1000x128 ![0, 1, 2] bcast_S1x1000x128_S1024x1000x128_0_1_2 (fetched emb ids)))
      (constant S_ .f32 0x00000000#32) reducesTo_S1024x1000x128_S1024x1000_d2 h_S_)
    (broadcastInDim S1024x1000 ![0, 1] bcast_S1x1000_S1024x1000_0_1
      (broadcastInDim S1x1000 ![1] bcast_S1000_S1x1000_1 bias))

end Cert.ReferenceIdeal.Hand

end
-- ==== Proof.RefRun.lean ====
/-
  The reference program's run. The program is a straight line of thirty array operations: the twenty-three of
  the lookup (the select that moves negative ids up among them), written out at the place the lookup is applied,
  then the seven that repeat the fetched rows along the batch axis, multiply, sum over the embedding axis and add
  the bias. Every execution ends with the result array at the composed term of the four argument arrays, and the
  argument arrays as they were.
-/
import proofs.«115791_g29781303230965_cont_9to1_2286_11_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The thirty operations, in order: the lookup's twenty-three over the arrays it names, then the seven after it. -/
abbrev ops : List (HloOp τ sig (Elt F)) :=
  [ TRef.nullary main_call0.c (constantI S_ 32 0#32),
    TRef.unary main_call0.c main_call0.v0 (broadcastInDim S1x1000 ![] bcast_S_S1x1000),
    TRef.binary (.of main_arg1 : TRef sig ⟨S1x1000, .i32⟩) main_call0.v0 main_call0.v1 (cmpi .slt),
    TRef.nullary main_call0.c_0 (constantI S_ 32 1000#32),
    TRef.unary main_call0.c_0 main_call0.v2 (broadcastInDim S1x1000 ![] bcast_S_S1x1000),
    TRef.binary (.of main_arg1 : TRef sig ⟨S1x1000, .i32⟩) main_call0.v2 main_call0.v3 addi,
    TRef.ternary main_call0.v1 main_call0.v3 (.of main_arg1 : TRef sig ⟨S1x1000, .i32⟩) main_call0.call0.v0 select,
    TRef.unary main_call0.call0.v0 main_call0.v5 (broadcastInDim S1x1000x1 ![0, 1] bcast_S1x1000_S1x1000x1_0_1),
    TRef.nullary main_call0.c_1 (constantI S1 32 999#32),
    TRef.nullary main_call0.c_2 (constantI S_ 32 0#32),
    TRef.unary main_call0.c_2 main_call0.v6 (broadcastInDim S1x1000x1 ![] bcast_S_S1x1000x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x1000x1 ![0, 1, 2] bcast_S1x1x1_S1x1000x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x1000x1_S1x1000_d2 h_S_),
    TRef.binary (.of main_arg2 : TRef sig ⟨S1000x128, .f32⟩) main_call0.v5 main_call0.v13 (fun x i => Host.gather gather_S1000x128_S1x1000x1_S1x1000x128_2_0_n_n_0_2_1128 x i),
    TRef.unary main_call0.v12 main_call0.v14 (broadcastInDim S1x1000x128 ![0, 1] bcast_S1x1000_S1x1000x128_0_1),
    TRef.nullary main_call0.cst (constant S_ .f32 0x7FC00000#32),
    TRef.unary main_call0.cst main_call0.v15 (broadcastInDim S1x1000x128 ![] bcast_S_S1x1000x128),
    TRef.ternary main_call0.v14 main_call0.v13 main_call0.v15 main_call0.v16 select,
    unary main_v0 main_v1 (broadcastInDim S1024x1000x128 ![0, 1, 2] bcast_S1x1000x128_S1024x1000x128_0_1_2 : (⟨S1x1000x128, .f32⟩ : BufTy).Contents (Elt F) → (⟨S1024x1000x128, .f32⟩ : BufTy).Contents (Elt F)),
    binary main_arg0 main_v1 main_v2 (mulf : (⟨S1024x1000x128, .f32⟩ : BufTy).Contents (Elt F) → (⟨S1024x1000x128, .f32⟩ : BufTy).Contents (Elt F) → (⟨S1024x1000x128, .f32⟩ : BufTy).Contents (Elt F)),
    nullary main_cst (constant S_ .f32 0x00000000#32),
    binary main_v2 main_cst main_v3 ((fun x v => Host.reduceAdd x v reducesTo_S1024x1000x128_S1024x1000_d2 h_S_) : (⟨S1024x1000x128, .f32⟩ : BufTy).Contents (Elt F) → (⟨S_, .f32⟩ : BufTy).Contents (Elt F) → (⟨S1024x1000, .f32⟩ : BufTy).Contents (Elt F)),
    unary main_arg3 main_v4 (broadcastInDim S1x1000 ![1] bcast_S1000_S1x1000_1 : (⟨S1000, .f32⟩ : BufTy).Contents (Elt F) → (⟨S1x1000, .f32⟩ : BufTy).Contents (Elt F)),
    unary main_v4 main_v5 (broadcastInDim S1024x1000 ![0, 1] bcast_S1x1000_S1024x1000_0_1 : (⟨S1x1000, .f32⟩ : BufTy).Contents (Elt F) → (⟨S1024x1000, .f32⟩ : BufTy).Contents (Elt F)),
    binary main_v3 main_v5 main_v6 (addf : (⟨S1024x1000, .f32⟩ : BufTy).Contents (Elt F) → (⟨S1024x1000, .f32⟩ : BufTy).Contents (Elt F) → (⟨S1024x1000, .f32⟩ : BufTy).Contents (Elt F)) ]

set_option maxRecDepth 1024 in
/-- The program is that straight line: with the lookup and the select written out where they are applied, both
    sides are one chain of steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., nullary_bufs_sub .., binary_bufs_sub .., unary_bufs_sub .., unary_bufs_sub ..,
    binary_bufs_sub ..⟩

/-- Every buffer of a device after the run is the fold of the thirty operations over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.gather in
set_option maxRecDepth 8192 in
/-- The result array after the thirty operations is the composed term: each operation's result read at its own
    array, every other array as it was. -/
theorem out_eq (V : Valuation τ sig (Elt F)) :
    after ops V (main_v6 : DevRef τ sig)
      = Hand.result (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of the
    program terminates with the result array at the composed term of the four argument arrays, and the argument
    arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = Cert.ReferenceIdeal.Hand.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v6).trans (out_eq _),
      (h c main_arg0).trans (arg0_eq _),
      (h c main_arg1).trans (arg1_eq _),
      (h c main_arg2).trans (arg2_eq _),
      (h c main_arg3).trans (arg3_eq _)⟩)
    (run_main m ρ)

end Cert.ReferenceIdeal.HandRun

end
-- ==== Proof.RefValue.lean ====
/-
  The reference's composed term is the specification, entry by entry, at the extended reals, as soon as every id
  names a row of the table.

  Fix a drug `d` whose id, read as a natural number, is below 1000. Then the id's sign bit is clear, so read as a
  signed integer it is that same number, in [0, 999]. Consequently

  * the wrap of negative ids leaves it unchanged (`wrappedIds_apply`);
  * both bounds tests hold, and their conjunction reduced over the trailing axis of extent one, starting from
    "true", is "true" (`inTable_apply`);
  * the fetch reads, at `(0, d, e)`, the table at row `clamp(id, 0, 999) = id` and column `e`
    (`gather_apply`, from the two coordinates of the operand index, `operandIdx_row` and `operandIdx_col`),
    and the fill value is never selected (`fetched_apply`).

  For a batch row `b` the result at `(b, d)` is then the initial value zero plus the sum over the 128 embedding
  coordinates of cell representation times fetched row, plus the bias at `d` (`result_apply`); commuting each
  product gives the specification's inner product (`result_eq_logits`).
-/
import proofs.«115791_g29781303230965_cont_9to1_2286_11_alg».proof.Proof.RefTerm
import proofs.«115791_g29781303230965_cont_9to1_2286_11_alg».proof.Proof.Spec
import Idealize.ShloMosaic.Lib.ValueIdx
import Idealize.ShloMosaic.Lib.Pipeline.Value
import Idealize.ShloMosaic.PureOps.Ideal.Laws

noncomputable section

namespace Cert.ReferenceIdeal.HandValue

open Cert.ReferenceIdeal Cert.ReferenceIdeal.Gen Cert.ReferenceIdeal.Hand Idealize.ShloMosaic Idealize.ShloMosaic.ValueIdx

/-! ## An id in range, read signed -/

/-- A 32-bit word below 1000 has its sign bit clear: read as a signed integer it is the same number. -/
theorem toInt_small (x : BitVec 32) (h : x.toNat < 1000) : x.toInt = (x.toNat : Int) := by
  rw [BitVec.toInt_eq_toNat_of_lt]; omega

/-! ## The wrap and the bounds test -/

/-- The wrap adds 1000 to a negative id only: an id in range is left as it is (and laid out at `(0, d, 0)`). -/
theorem wrappedIds_apply (ids : IVec S1x1000 32) (d : Fin 1000) (h : (ids (ix2 (0 : Fin 1) d)).toNat < 1000) :
    wrappedIds ids (ix3 (0 : Fin 1) d (0 : Fin 1)) = ids (ix2 (0 : Fin 1) d) := by
  unfold wrappedIds
  rw [broadcastInDim_apply _ _ _ (ix3 (0 : Fin 1) d (0 : Fin 1)) (ix2 (0 : Fin 1) d)
    (fun a => match a with | ⟨0, _⟩ => rfl | ⟨1, _⟩ => rfl)]
  show Scalar.select (IntOp.cmpi .slt (ids (ix2 (0 : Fin 1) d)) 0#32) (IntOp.addi (ids (ix2 (0 : Fin 1) d)) 1000#32)
    (ids (ix2 (0 : Fin 1) d)) = _
  have hc : IntOp.cmpi .slt (ids (ix2 (0 : Fin 1) d)) 0#32 = 0#1 := by
    refine eq_zero_of_ne_one fun h1 => ?_
    have := IntOp.cmpi_slt.1 h1
    rw [toInt_small _ h, show (0#32 : BitVec 32).toInt = 0 from rfl] at this
    omega
  rw [hc, select_zero]

/-- A fold of a commutative, associative operation over the one-element index set is one application. -/
theorem fold_fin_one {β : Type} (op : β → β → β) [Std.Commutative op] [Std.Associative op] (b : β) (f : Fin 1 → β) :
    (Finset.univ : Finset (Fin 1)).fold op b f = op (f 0) b := by
  rw [Finset.univ_unique, Finset.fold_singleton]; rfl

/-- The bounds test of an id in range is "true": `0 ≤ id` and `id ≤ 999` both hold, and the conjunction over the
    trailing axis, whose extent is one, has that single term beside the initial "true". -/
theorem inTable_apply (w : IVec S1x1000x1 32) (d : Fin 1000) (h : (w (ix3 (0 : Fin 1) d (0 : Fin 1))).toNat < 1000) :
    inTable w (ix2 (0 : Fin 1) d) = 1#1 := by
  unfold inTable
  have hR : S1x1000x1.Reduces [2] S1x1000 := by decide
  rw [Host.reduce_eq_fold_single IntOp.andi _ _ reducesTo_S1x1000x1_S1x1000_d2 hR h_S_ (ix2 (0 : Fin 1) d)]
  refine (fold_fin_one IntOp.andi _ _).trans ?_
  have hl : hR.lift (ix2 (0 : Fin 1) d) (0 : Fin 1) = ix3 (0 : Fin 1) d (0 : Fin 1) := by
    funext c
    match c with
    | ⟨0, _⟩ => rfl
    | ⟨1, _⟩ => rfl
    | ⟨2, _⟩ => rfl
  show IntOp.andi (IntOp.andi (IntOp.cmpi .sge (w (hR.lift (ix2 (0 : Fin 1) d) (0 : Fin 1))) 0#32)
    (IntOp.cmpi .sle (w (hR.lift (ix2 (0 : Fin 1) d) (0 : Fin 1))) 999#32)) 1#1 = 1#1
  rw [hl]
  refine IntOp.andi_eq_one.2 ⟨?_, rfl⟩
  refine IntOp.andi_eq_one.2 ⟨IntOp.cmpi_sge.2 ?_, IntOp.cmpi_sle.2 ?_⟩
  · rw [toInt_small _ h, show (0#32 : BitVec 32).toInt = 0 from rfl]; omega
  · rw [toInt_small _ h, show (999#32 : BitVec 32).toInt = 999 from rfl]; omega

/-! ## The fetch, read at an index

The fetch takes one whole row of the `[1000, 128]` table per start index: the row axis is collapsed and addressed by
the start index, the column axis is kept and addressed by the result's trailing coordinate. -/

/-- The fetch's dimension numbers. -/
abbrev G := gather_S1000x128_S1x1000x1_S1x1000x128_2_0_n_n_0_2_1128

/-- On the row axis the operand index is the start index at `(0, d, 0)`, read signed and clamped into [0, 999]:
    that axis carries no batching and no offset coordinate. -/
theorem operandIdx_row (idx : IVec S1x1000x1 32) (d : Fin 1000) (e : Fin 128) :
    (G.operandIdx (ix3 (0 : Fin 1) d e) idx (0 : Fin 2)).val
      = min (idx (ix3 (0 : Fin 1) d (0 : Fin 1))).toInt.toNat 999 := by
  show G.start (ix3 (0 : Fin 1) d e) idx (0 : Fin 2) + G.batchCoord (ix3 (0 : Fin 1) d e) (0 : Fin 2)
    + G.offCoord (ix3 (0 : Fin 1) d e) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ G.startIndexMap from List.mem_singleton.mpr rfl)]
  have hsi : G.siIdx (ix3 (0 : Fin 1) d e) ⟨List.idxOf (0 : Fin 2) G.startIndexMap,
      List.idxOf_lt_length_iff.2 (List.mem_singleton.mpr rfl)⟩ = ix3 (0 : Fin 1) d (0 : Fin 1) := by
    funext b; refine Fin.ext ?_
    match b with
    | ⟨0, _⟩ => rfl
    | ⟨1, _⟩ => rfl
    | ⟨2, _⟩ => rfl
  rw [hsi]
  rfl

/-- On the column axis the operand index is the result's trailing coordinate: that axis is not in the start index
    map (its slice starts at 0) and is not a batching axis, and it is the one kept axis, read by the offset axis. -/
theorem operandIdx_col (idx : IVec S1x1000x1 32) (d : Fin 1000) (e : Fin 128) :
    (G.operandIdx (ix3 (0 : Fin 1) d e) idx (1 : Fin 2)).val = e.val := by
  show G.start (ix3 (0 : Fin 1) d e) idx (1 : Fin 2) + G.batchCoord (ix3 (0 : Fin 1) d e) (1 : Fin 2)
    + G.offCoord (ix3 (0 : Fin 1) d e) (1 : Fin 2) = _
  rw [GatherDims.batchCoord_eq_zero _ _ _ List.not_mem_nil]
  have hs : G.start (ix3 (0 : Fin 1) d e) idx (1 : Fin 2) = 0 := by
    unfold GatherDims.start
    rw [dif_neg (show (1 : Fin 2) ∉ G.startIndexMap by decide)]
  have ho : G.offCoord (ix3 (0 : Fin 1) d e) (1 : Fin 2) = e.val := by
    unfold GatherDims.offCoord
    rw [dif_pos (show (1 : Fin 2) ∈ G.sKept by decide)]
    rfl
  rw [hs, ho]; omega

/-- THE FETCH READ AT `(0, d, e)`: the table at the row the start index `idx[0, d, 0]` names, read signed and clamped
    into [0, 999], and column `e`. -/
theorem gather_apply {α : Type} (x : S1000x128.Idx → α) (idx : IVec S1x1000x1 32) (d : Fin 1000) (e : Fin 128) :
    Host.gather G x idx (ix3 (0 : Fin 1) d e)
      = x (ix2 (⟨min (idx (ix3 (0 : Fin 1) d (0 : Fin 1))).toInt.toNat 999, by omega⟩ : Fin 1000) e) := by
  unfold Host.gather
  congr 1
  funext a
  refine Fin.ext ?_
  match a with
  | ⟨0, _⟩ => exact operandIdx_row idx d e
  | ⟨1, _⟩ => exact operandIdx_col idx d e

/-- With the id in range the fetched row is the table's row at the id: the bounds test selects the fetch, not the
    fill value, and the clamp of a number already in [0, 999] is that number. -/
theorem fetched_apply (emb : FVec Ideal S1000x128 .f32) (ids : IVec S1x1000 32) (d : Fin 1000) (e : Fin 128)
    (h : (ids (ix2 (0 : Fin 1) d)).toNat < 1000) :
    fetched emb ids (ix3 (0 : Fin 1) d e) = emb (ix2 (⟨(ids (ix2 (0 : Fin 1) d)).toNat, h⟩ : Fin 1000) e) := by
  have hw := wrappedIds_apply ids d h
  unfold fetched
  rw [select_apply, broadcastInDim_apply _ _ _ (ix3 (0 : Fin 1) d e) (ix2 (0 : Fin 1) d)
    (fun a => match a with | ⟨0, _⟩ => rfl | ⟨1, _⟩ => rfl),
    inTable_apply _ d (by rw [hw]; exact h), select_one]
  refine (gather_apply emb (wrappedIds ids) d e).trans ?_
  refine congrArg (fun k : Fin 1000 => emb (ix2 k e)) (Fin.ext ?_)
  show min (wrappedIds ids (ix3 (0 : Fin 1) d (0 : Fin 1))).toInt.toNat 999 = (ids (ix2 (0 : Fin 1) d)).toNat
  rw [hw, toInt_small _ h]
  omega

/-! ## The result, read at an index -/

/-- The result at `(b, d)`: the sum over the embedding coordinates of cell representation times fetched row (the
    fetched rows do not depend on the batch row; the sum starts from zero), plus the bias at `d`. -/
theorem result_apply (cell : FVec Ideal S1024x1000x128 .f32) (ids : IVec S1x1000 32) (emb : FVec Ideal S1000x128 .f32)
    (bias : FVec Ideal S1000 .f32) (b : Fin 1024) (d : Fin 1000) :
    result (F := Ideal) cell ids emb bias (ix2 b d)
      = (∑ e : Fin 128, cell (ix3 b d e) * fetched emb ids (ix3 (0 : Fin 1) d e)) + bias (ix1 d) := by
  have hR : S1024x1000x128.Reduces [2] S1024x1000 := by decide
  unfold result
  rw [addf_apply]
  congr 1
  · show Ideal.hostReduceAdd reducesTo_S1024x1000x128_S1024x1000_d2 _ (Ideal.ofBits .f32 0x00000000#32) (ix2 b d) = _
    rw [Ideal.hostReduceAdd_single _ hR, Ideal.ofBits_zero_f32, zero_add]
    show (∑ e : Fin 128, _) = _
    refine Finset.sum_congr rfl fun e _ => ?_
    have hl : hR.lift (ix2 b d) e = ix3 b d e := by
      funext c
      match c with
      | ⟨0, _⟩ => rfl
      | ⟨1, _⟩ => rfl
      | ⟨2, _⟩ => rfl
    rw [hl, mulf_apply, broadcastInDim_apply _ _ _ (ix3 b d e) (ix3 (0 : Fin 1) d e)
      (fun a => match a with | ⟨0, _⟩ => rfl | ⟨1, _⟩ => rfl | ⟨2, _⟩ => rfl)]
  · rw [broadcastInDim_apply _ _ _ (ix2 b d) (ix2 (0 : Fin 1) d)
      (fun a => match a with | ⟨0, _⟩ => rfl | ⟨1, _⟩ => rfl),
      broadcastInDim_apply _ _ _ (ix2 (0 : Fin 1) d) (ix1 d)
      (fun a => match a with | ⟨0, _⟩ => rfl)]

/-- THE REFERENCE IS THE SPECIFICATION when every id names a row of the table: at each `(b, d)` both are the inner
    product of the table's row at the id with the cell representation, plus the bias; the two write the products in
    opposite orders, and multiplication of extended reals is commutative. -/
theorem result_eq_logits
    (cell : FVec Ideal Cert.ReferenceIdeal.S1024x1000x128 .f32) (ids : IVec Cert.ReferenceIdeal.S1x1000 32)
    (emb : FVec Ideal Cert.ReferenceIdeal.S1000x128 .f32) (bias : FVec Ideal Cert.ReferenceIdeal.S1000 .f32)
    (hids : ∀ d : Fin 1000, (ids (Idealize.ShloMosaic.ValueIdx.ix2 (0 : Fin 1) d)).toNat < 1000) :
    Cert.ReferenceIdeal.Hand.result (F := Ideal) cell ids emb bias = Cert.DrugLogits.logits cell ids emb bias := by
  funext i
  obtain ⟨b, d, rfl⟩ : ∃ b d, i = ix2 b d := ⟨i 0, i 1, eq_ix2 i⟩
  rw [result_apply, Cert.DrugLogits.logits_apply]
  unfold Cert.DrugLogits.logitAt
  congr 1
  refine Finset.sum_congr rfl fun e _ => ?_
  rw [fetched_apply emb ids d e (hids d), Cert.DrugLogits.tableRow_of_lt ids emb d e (hids d), mul_comm]

end Cert.ReferenceIdeal.HandValue

end
-- ==== Proof.PreIds.lean ====
/-
  From the certificate's precondition to "every drug id names a row of the table".

  The precondition is a conjunction of five tests, each an "all entries satisfy …" over one argument array: the first
  three say that every entry of a float array is finite (its absolute value is below +∞), the last two that every id
  is at least 0 and below 1000 as a signed 32-bit word. Only the last two are used here. A conjunction of single bits that is 1 has both bits 1; an
  "all" that is 1 has a 1 at every index; and a signed word that is at least 0 and below 1000 reads, unsigned,
  as a natural number below 1000.
-/
import proofs.«115791_g29781303230965_cont_9to1_2286_11_alg».proof.Proof.Gen.Pre_finite_inputs
import Idealize.ShloMosaic.Lib.ReduceAll
import Idealize.ShloMosaic.Lib.ValueIdx

namespace Cert.PreIds

open Idealize.ShloMosaic Idealize.ShloMosaic.ValueIdx Cert.Pre_finite_inputs Cert.Pre_finite_inputs.Gen

/-- An array with no axes has one index. -/
instance : Subsingleton S_.Idx := ⟨fun a b => funext fun d => d.elim0⟩

/-- A signed 32-bit word that is at least 0 and below 1000 is, read unsigned, below 1000. -/
theorem toNat_lt_of_signed_range {x : BitVec 32} (h0 : (0#32 : BitVec 32).toInt ≤ x.toInt)
    (h1 : x.toInt < (1000#32 : BitVec 32).toInt) : x.toNat < 1000 := by
  have z0 : (0#32 : BitVec 32).toInt = 0 := by decide
  have z1 : (1000#32 : BitVec 32).toInt = 1000 := by decide
  rw [z0] at h0
  rw [z1] at h1
  have hc : 2 * x.toNat < 2 ^ 32 := BitVec.toInt_pos_iff.1 h0
  rw [BitVec.toInt_eq_toNat_of_lt hc] at h1
  omega

/-- Under the precondition every drug id, read as a natural number, is below 1000. -/
theorem ids_lt (a0 : FVec Ideal Cert.Pre_finite_inputs.S1024x1000x128 .f32) (a1 : IVec Cert.Pre_finite_inputs.S1x1000 32) (a2 : FVec Ideal Cert.Pre_finite_inputs.S1000x128 .f32) (a3 : FVec Ideal Cert.Pre_finite_inputs.S1000 .f32)
    (h : Cert.Pre_finite_inputs.fn (F := Ideal) a0 a1 a2 a3 = fun _ => 1#1) (d : Fin 1000) : (a1 (Idealize.ShloMosaic.ValueIdx.ix2 (0 : Fin 1) d)).toNat < 1000 := by
  -- the one entry of the precondition's result, with the five tests in view
  have h0 := congrFun h ValueIdx.ix0
  dsimp only [fn, fn_part1] at h0
  -- the last conjunct is "all ids < 1000", the one before it "all ids ≥ 0"
  obtain ⟨h1, hlt⟩ := IntOp.andi_eq_one.1 h0
  obtain ⟨_, hge⟩ := IntOp.andi_eq_one.1 h1
  -- each "all" at the index of drug d; the compared constant is the same at every index
  have e1 : IntOp.cmpi .sge (a1 (ix2 (0 : Fin 1) d)) 0#32 = 1#1 :=
    Host.reduce_andi_all _ _ _ _ _ hge (ix2 (0 : Fin 1) d)
  have e2 : IntOp.cmpi .slt (a1 (ix2 (0 : Fin 1) d)) 1000#32 = 1#1 :=
    Host.reduce_andi_all _ _ _ _ _ hlt (ix2 (0 : Fin 1) d)
  exact toNat_lt_of_signed_range (IntOp.cmpi_sge.1 e1) (IntOp.cmpi_slt.1 e2)

end Cert.PreIds
-- ==== Proof.lean ====
/-
  The certificate: a drug-decoder kernel against its reference.

  Both programs compute, for batch row `b` and drug `d`,

      logit b d = (∑ e, table[ids[d], e] · cell[b, d, e]) + bias[d]            (Proof/Spec.lean).

  The kernel gathers the table rows once, by a product with the one-hot matrix of the ids, keeps them in a scratch
  buffer across the grid, and at each grid point reduces 32 batch rows against them, drugs-major; two host lines put the
  result batch-major. Read at the extended reals this is the formula above with the selected row taken totally (the
  zero row for an id outside the table), for every input (Proof/KValue.lean). The reference looks the rows up by index
  (wrapping negative ids, filling rows of ids still out of range), multiplies, sums and adds the bias; with every id in
  [0, 1000) — which the precondition states — the lookup is the plain row of the table and the two sides differ only by
  the order of the factors in each product (Proof/RefValue.lean). No finiteness of the float inputs is used: over the
  extended reals 0 · x = 0 and 1 · x = x hold for every x, and the two sums range over the same 128 terms.
-/
import proofs.«115791_g29781303230965_cont_9to1_2286_11_alg».proof.Defs
import proofs.«115791_g29781303230965_cont_9to1_2286_11_alg».proof.Proof.Gen.Kernel
import proofs.«115791_g29781303230965_cont_9to1_2286_11_alg».proof.Proof.Gen.Kernel.Frame
import proofs.«115791_g29781303230965_cont_9to1_2286_11_alg».proof.Proof.Gen.KernelIdeal
import proofs.«115791_g29781303230965_cont_9to1_2286_11_alg».proof.Proof.Gen.KernelIdeal.Frame
import proofs.«115791_g29781303230965_cont_9to1_2286_11_alg».proof.Proof.Gen.ReferenceIdeal
import proofs.«115791_g29781303230965_cont_9to1_2286_11_alg».proof.Proof.Gen.Pre_finite_inputs
import proofs.«115791_g29781303230965_cont_9to1_2286_11_alg».proof.Proof.KValue
import proofs.«115791_g29781303230965_cont_9to1_2286_11_alg».proof.Proof.RefRun
import proofs.«115791_g29781303230965_cont_9to1_2286_11_alg».proof.Proof.RefValue
import proofs.«115791_g29781303230965_cont_9to1_2286_11_alg».proof.Proof.PreIds

noncomputable section

namespace Cert.Proof

open Idealize.ShloMosaic Idealize.ShloMosaic.TcCoe Idealize.SL.Sem

/-- Each program runs to completion without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealized kernel is the kernel's own text read at the extended reals: no operation was rewritten. -/
theorem preserves : Cert.preserves_Kernel_KernelIdeal := trivial

/-- From arguments that agree and ids in range, both idealized programs end at the logits array of the arguments. -/
theorem algebraic : Cert.algebraic_KernelIdeal_ReferenceIdeal := by
  intro m ρ m' ρ' hpre hagree
  refine ⟨fun c => Cert.DrugLogits.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HandValue.run_logits m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3⟩ := hagree c
  rw [e0, e1, e2, e3]
  exact Cert.ReferenceIdeal.HandValue.result_eq_logits _ _ _ _ (fun d => Cert.PreIds.ids_lt _ _ _ _ (hpre c) d)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
